-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x50000x64 : Shape := ⟨3, ![2, 50000, 64]⟩
abbrev S800000x2 : Shape := ⟨2, ![800000, 2]⟩
abbrev S800000 : Shape := ⟨1, ![800000]⟩
abbrev S64x64 : Shape := ⟨2, ![64, 64]⟩
abbrev S_ : Shape := ⟨0, ![]⟩

class Facts : Prop where
  bcast_S_S2x50000x64 : S_.BroadcastsInDim S2x50000x64 (![] : Fin 0 → Fin S2x50000x64.rank)
  reducesTo_S2x50000x64_S_d0_1_2 : S2x50000x64.ReducesTo [0, 1, 2] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64x64 .f32) (main_v13 : IVec S_ 1) (main_v16 : IVec S800000 1) : IVec S_ 1 :=
  let main_c_5 : IVec S_ 1 := constantI S_ 1 1#1
  let main_v17 : IVec S_ 1 := (fun x v => Host.reduce IntOp.andi x v reducesTo_S800000_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  main_v23

def fn {F : FTy → Type} [FloatOps F] (main_arg0 : FVec F S2x50000x64 .f32) (main_arg1 : IVec S800000x2 32) (main_arg2 : FVec F S2x50000x64 .f32) (main_arg3 : FVec F S2x50000x64 .f32) (main_arg4 : FVec F S800000 .f32) (main_arg5 : FVec F S64x64 .f32) : IVec S_ 1 :=
  let main_v0 : FVec F S2x50000x64 .f32 := Host.absf main_arg0
  let main_cst : FVec F S_ .f32 := constant S_ .f32 0x7F800000#32
  let main_v1 : FVec F S2x50000x64 .f32 := broadcastInDim S2x50000x64 ![] bcast_S_S2x50000x64 main_cst
  let main_v2 : IVec S2x50000x64 1 := cmpf .olt main_v0 main_v1
  let main_c : IVec S_ 1 := constantI S_ 1 1#1
  let main_v3 : IVec S_ 1 := (fun x v => Host.reduce IntOp.andi x v reducesTo_S2x50000x64_S_d0_1_2 h_S_) main_v2 main_c
  let main_v4 : FVec F S2x50000x64 .f32 := Host.absf main_arg2
  let main_cst_0 : FVec F S_ .f32 := constant S_ .f32 0x7F800000#32
  let main_v5 : FVec F S2x50000x64 .f32 := broadcastInDim S2x50000x64 ![] bcast_S_S2x50000x64 main_cst_0
  let main_v6 : IVec S2x50000x64 1 := cmpf .olt main_v4 main_v5
  let main_c_1 : IVec S_ 1 := constantI S_ 1 1#1
  let main_v7 : IVec S_ 1 := (fun x v => Host.reduce IntOp.andi x v reducesTo_S2x50000x64_S_d0_1_2 h_S_) main_v6 main_c_1
  let main_v8 : IVec S_ 1 := andi main_v3 main_v7
  let main_v9 : FVec F S2x50000x64 .f32 := Host.absf main_arg3
  let main_cst_2 : FVec F S_ .f32 := constant S_ .f32 0x7F800000#32
  let main_v10 : FVec F S2x50000x64 .f32 := broadcastInDim S2x50000x64 ![] bcast_S_S2x50000x64 main_cst_2
  let main_v11 : IVec S2x50000x64 1 := cmpf .olt main_v9 main_v10
  let main_c_3 : IVec S_ 1 := constantI S_ 1 1#1
  let main_v12 : IVec S_ 1 := (fun x v => Host.reduce IntOp.andi x v reducesTo_S2x50000x64_S_d0_1_2 h_S_) main_v11 main_c_3
  let main_v13 : IVec S_ 1 := andi main_v8 main_v12
  let main_v14 : FVec F S800000 .f32 := Host.absf main_arg4
  let main_cst_4 : FVec F S_ .f32 := constant S_ .f32 0x7F800000#32
  let main_v15 : FVec F S800000 .f32 := broadcastInDim S800000 ![] bcast_S_S800000 main_cst_4
  let main_v16 : IVec S800000 1 := cmpf .olt main_v14 main_v15
  fn_part1 (F := F) main_arg5 main_v13 main_v16
-- ==== Kernel.lean ====
abbrev S2x50000x64 : Shape := ⟨3, ![2, 50000, 64]⟩
abbrev S800000x2 : Shape := ⟨2, ![800000, 2]⟩
abbrev S800000 : Shape := ⟨1, ![800000]⟩
abbrev S64x64 : Shape := ⟨2, ![64, 64]⟩
abbrev S800000x1 : Shape := ⟨2, ![800000, 1]⟩
abbrev S1600000 : Shape := ⟨1, ![1600000]⟩
abbrev S1x1600000x1 : Shape := ⟨3, ![1, 1600000, 1]⟩
abbrev S_ : Shape := ⟨0, ![]⟩
abbrev S1600000x1 : Shape := ⟨2, ![1600000, 1]⟩
abbrev S2x1600000x64 : Shape := ⟨3, ![2, 1600000, 64]⟩
abbrev S100000x64 : Shape := ⟨2, ![100000, 64]⟩
abbrev S5000x64 : Shape := ⟨2, ![5000, 64]⟩

abbrev nBuf : Space → Nat
  | .hbm => 43
  | .vmem => 9
  | .smem => 0
  | _ => 0

abbrev bufTy : (tb : Table) → Fin (tcTables nBuf tb) → BufTy
  | .hbm, ⟨0, _⟩ => ⟨S2x50000x64, .f32⟩
  | .hbm, ⟨1, _⟩ => ⟨S800000x2, .i32⟩
  | .hbm, ⟨2, _⟩ => ⟨S2x50000x64, .f32⟩
  | .hbm, ⟨3, _⟩ => ⟨S2x50000x64, .f32⟩
  | .hbm, ⟨4, _⟩ => ⟨S800000, .f32⟩
  | .hbm, ⟨5, _⟩ => ⟨S64x64, .f32⟩
  | .hbm, ⟨6, _⟩ => ⟨S800000x1, .i32⟩
  | .hbm, ⟨7, _⟩ => ⟨S800000, .i32⟩
  | .hbm, ⟨8, _⟩ => ⟨S800000x1, .i32⟩
  | .hbm, ⟨9, _⟩ => ⟨S800000, .i32⟩
  | .hbm, ⟨10, _⟩ => ⟨S1600000, .i32⟩
  | .hbm, ⟨11, _⟩ => ⟨S1600000, .i32⟩
  | .hbm, ⟨12, _⟩ => ⟨S1600000, .f32⟩
  | .hbm, ⟨13, _⟩ => ⟨S1x1600000x1, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S2x1600000x64, .f32⟩
  | .hbm, ⟨23, _⟩ => ⟨S2x1600000x64, .f32⟩
  | .hbm, ⟨24, _⟩ => ⟨S2x1600000x64, .f32⟩
  | .hbm, ⟨25, _⟩ => ⟨S_, .f32⟩
  | .hbm, ⟨26, _⟩ => ⟨S2x50000x64, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S2x50000x64, .f32⟩
  | .hbm, ⟨36, _⟩ => ⟨S64x64, .f32⟩
  | .hbm, ⟨37, _⟩ => ⟨S64x64, .bf16⟩
  | .hbm, ⟨38, _⟩ => ⟨S100000x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S2x50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S64x64, .bf16⟩
  | .local _ .vmem, ⟨7, _⟩ => ⟨S5000x64, .f32⟩
  | .local _ .vmem, ⟨8, _⟩ => ⟨S5000x64, .f32⟩
  | _, _ => ⟨S2x50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  concatenates_S800000_S800000_S1600000_d0 : Shape.Concatenates [S800000, S800000] S1600000 0
  shapeCasts_S1600000_S1x1600000x1 : S1600000.ShapeCasts S1x1600000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1x1600000x1_S2x1600000x64_0_1_2 : S1x1600000x1.BroadcastsInDim S2x1600000x64 (![0, 1, 2] : Fin 3 → Fin S2x1600000x64.rank)
  bcast_S_S2x50000x64 : S_.BroadcastsInDim S2x50000x64 (![] : Fin 0 → Fin S2x50000x64.rank)
  transposes_S64x64_S64x64_1_0 : S64x64.Transposes [1, 0] S64x64
  bitsLt_bf16_f32 : FTy.bits .bf16 < FTy.bits .f32
  shapeCasts_S2x50000x64_S100000x64 : S2x50000x64.ShapeCasts S100000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S100000x64_S2x50000x64 : S100000x64.ShapeCasts S2x50000x64
  gather_S2x50000x64_S1600000x1_S2x1600000x64_02_1_n_n_1_1_2164_wf : GatherDims.WF S2x50000x64 S1600000x1 S2x1600000x64 [0, 2] [1] [] [1] [] 1 ![2, 1, 64]
  scatter_S2x50000x64_S1600000x1_S2x1600000x64_02_1_1_1_wf : ScatterDims.WF S2x50000x64 S1600000x1 S2x1600000x64 [0, 2] [1] [1] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)

variable [Facts₀]

def gather_S2x50000x64_S1600000x1_S2x1600000x64_02_1_n_n_1_1_2164 : GatherDims S2x50000x64 S1600000x1 S2x1600000x64 where
  offsetDims := [0, 2]
  collapsedSliceDims := [1]
  operandBatchingDims := []
  startIndicesBatchingDims := []
  startIndexMap := [1]
  indexVectorDim := 1
  sliceSizes := ![2, 1, 64]
  wf := gather_S2x50000x64_S1600000x1_S2x1600000x64_02_1_n_n_1_1_2164_wf
def scatter_S2x50000x64_S1600000x1_S2x1600000x64_02_1_1_1 : ScatterDims S2x50000x64 S1600000x1 S2x1600000x64 where
  updateWindowDims := [0, 2]
  insertedWindowDims := [1]
  scatterDimsToOperandDims := [1]
  indexVectorDim := 1
  wf := scatter_S2x50000x64_S1600000x1_S2x1600000x64_02_1_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v27) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x50000x64 : Shape := ⟨3, ![2, 50000, 64]⟩
abbrev S800000x2 : Shape := ⟨2, ![800000, 2]⟩
abbrev S800000 : Shape := ⟨1, ![800000]⟩
abbrev S64x64 : Shape := ⟨2, ![64, 64]⟩
abbrev S800000x1 : Shape := ⟨2, ![800000, 1]⟩
abbrev S1x800000x1 : Shape := ⟨3, ![1, 800000, 1]⟩
abbrev S_ : Shape := ⟨0, ![]⟩
abbrev S2x800000x64 : Shape := ⟨3, ![2, 800000, 64]⟩

abbrev nBuf : Space → Nat
  | .hbm => 63
  | .vmem => 0
  | .smem => 0
  | _ => 0

abbrev bufTy : (tb : Table) → Fin (tcTables nBuf tb) → BufTy
  | .hbm, ⟨0, _⟩ => ⟨S2x50000x64, .f32⟩
  | .hbm, ⟨1, _⟩ => ⟨S800000x2, .i32⟩
  | .hbm, ⟨2, _⟩ => ⟨S2x50000x64, .f32⟩
  | .hbm, ⟨3, _⟩ => ⟨S2x50000x64, .f32⟩
  | .hbm, ⟨4, _⟩ => ⟨S800000, .f32⟩
  | .hbm, ⟨5, _⟩ => ⟨S64x64, .f32⟩
  | .hbm, ⟨6, _⟩ => ⟨S800000x1, .i32⟩
  | .hbm, ⟨7, _⟩ => ⟨S800000, .i32⟩
  | .hbm, ⟨8, _⟩ => ⟨S800000x1, .i32⟩
  | .hbm, ⟨9, _⟩ => ⟨S800000, .i32⟩
  | .hbm, ⟨10, _⟩ => ⟨S1x800000x1, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S2x800000x64, .f32⟩
  | .hbm, ⟨20, _⟩ => ⟨S2x800000x64, .f32⟩
  | .hbm, ⟨21, _⟩ => ⟨S2x800000x64, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S2x800000x64, .f32⟩
  | .hbm, ⟨31, _⟩ => ⟨S2x800000x64, .f32⟩
  | .hbm, ⟨32, _⟩ => ⟨S2x800000x64, .f32⟩
  | .hbm, ⟨33, _⟩ => ⟨S_, .f32⟩
  | .hbm, ⟨34, _⟩ => ⟨S2x50000x64, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S2x50000x64, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S2x50000x64, .f32⟩
  | .hbm, ⟨53, _⟩ => ⟨S2x50000x64, .f32⟩
  | .hbm, ⟨54, _⟩ => ⟨S2x50000x64, .f32⟩
  | .hbm, ⟨55, _⟩ => ⟨S2x50000x64, .f32⟩
  | .hbm, ⟨56, _⟩ => ⟨S_, .f32⟩
  | .hbm, ⟨57, _⟩ => ⟨S2x50000x64, .f32⟩
  | .hbm, ⟨58, _⟩ => ⟨S2x50000x64, .i1⟩
  | .hbm, ⟨59, _⟩ => ⟨S_, .f32⟩
  | .hbm, ⟨60, _⟩ => ⟨S2x50000x64, .f32⟩
  | .hbm, ⟨61, _⟩ => ⟨S2x50000x64, .f32⟩
  | .hbm, ⟨62, _⟩ => ⟨S2x50000x64, .f32⟩
  | _, _ => ⟨S2x50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev main_c_3 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_call0_cst : Ref sig .tc := ⟨.hbm, 56, rfl⟩
abbrev main_call0_v0 : Ref sig .tc := ⟨.hbm, 57, rfl⟩
abbrev main_call0_v1 : Ref sig .tc := ⟨.hbm, 58, rfl⟩
abbrev main_call0_cst_0 : Ref sig .tc := ⟨.hbm, 59, rfl⟩
abbrev main_call0_v2 : Ref sig .tc := ⟨.hbm, 60, rfl⟩
abbrev main_call0_v3 : Ref sig .tc := ⟨.hbm, 61, rfl⟩
abbrev main_v41 : Ref sig .tc := ⟨.hbm, 62, rfl⟩

abbrev nD : Nat := 1
abbrev τ : Topo := Topo.v7x

variable {F : FTy → Type} [FloatOps F]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  shapeCasts_S800000_S1x800000x1 : S800000.ShapeCasts S1x800000x1
  bcast_S_S800000 : S_.BroadcastsInDim S800000 (![] : Fin 0 → Fin S800000.rank)
  bcast_S800000_S800000x1_0 : S800000.BroadcastsInDim S800000x1 (![0] : Fin 1 → Fin S800000x1.rank)
  bcast_S1x800000x1_S2x800000x64_0_1_2 : S1x800000x1.BroadcastsInDim S2x800000x64 (![0, 1, 2] : Fin 3 → Fin S2x800000x64.rank)
  bcast_S_S2x50000x64 : S_.BroadcastsInDim S2x50000x64 (![] : Fin 0 → Fin S2x50000x64.rank)
  gather_S2x50000x64_S800000x1_S2x800000x64_02_1_n_n_1_1_2164_wf : GatherDims.WF S2x50000x64 S800000x1 S2x800000x64 [0, 2] [1] [] [1] [] 1 ![2, 1, 64]
  scatter_S2x50000x64_S800000x1_S2x800000x64_02_1_1_1_wf : ScatterDims.WF S2x50000x64 S800000x1 S2x800000x64 [0, 2] [1] [1] 1
  dot_S2x50000x64_S64x64_S2x50000x64_2_1_01_0_n_n_wf : DotDims.WF S2x50000x64 S64x64 S2x50000x64 [2] [1] [0, 1] [0] [] []

variable [Facts₀]

def gather_S2x50000x64_S800000x1_S2x800000x64_02_1_n_n_1_1_2164 : GatherDims S2x50000x64 S800000x1 S2x800000x64 where
  offsetDims := [0, 2]
  collapsedSliceDims := [1]
  operandBatchingDims := []
  startIndicesBatchingDims := []
  startIndexMap := [1]
  indexVectorDim := 1
  sliceSizes := ![2, 1, 64]
  wf := gather_S2x50000x64_S800000x1_S2x800000x64_02_1_n_n_1_1_2164_wf
def scatter_S2x50000x64_S800000x1_S2x800000x64_02_1_1_1 : ScatterDims S2x50000x64 S800000x1 S2x800000x64 where
  updateWindowDims := [0, 2]
  insertedWindowDims := [1]
  scatterDimsToOperandDims := [1]
  indexVectorDim := 1
  wf := scatter_S2x50000x64_S800000x1_S2x800000x64_02_1_1_1_wf
def dot_S2x50000x64_S64x64_S2x50000x64_2_1_01_0_n_n : DotDims S2x50000x64 S64x64 S2x50000x64 where
  lhsContracting := [2]
  rhsContracting := [1]
  lhsNonContracting := [0, 1]
  rhsNonContracting := [0]
  lhsBatch := []
  rhsBatch := []
  wf := dot_S2x50000x64_S64x64_S2x50000x64_2_1_01_0_n_n_wf

class Facts : Prop extends Facts₀ where

variable [Facts]
-- ==== Proof.RefTerm.lean ====
/-
  The reference's host chain as named terms of its argument arrays: the two columns of the edge list, a column of
  start indices with negative entries counted from the end, the gated messages gathered along one endpoint, the two
  accumulating scatters, and the linear layer with its residual sums and leaky rectifier.
-/
import proofs.«157130_j70669391888820_2_alg».proof.ReferenceIdeal

noncomputable section

namespace Cert.ReferenceIdeal.Term

open Idealize.ShloMosaic Cert.ReferenceIdeal Cert.ReferenceIdeal.Facts₀

variable {F : FTy → Type} [FloatOps F] [Facts]

/-- The first column of the edge list (the source endpoints), as a vector. -/
def col0 (a1 : IVec S800000x2 32) : IVec S800000 32 :=
  shapeCast S800000 (extractStridedSlice S800000x1 ![0, 0] a1 slices_S800000x2_S800000x1_0_0) shapeCasts_S800000x1_S800000

/-- The second column of the edge list (the destination endpoints), as a vector. -/
def col1 (a1 : IVec S800000x2 32) : IVec S800000 32 :=
  shapeCast S800000 (extractStridedSlice S800000x1 ![0, 1] a1 slices_S800000x2_S800000x1_0_1) shapeCasts_S800000x1_S800000

/-- A vector of node numbers as a column of start indices: a negative entry has the node count added. -/
def wrap (x : IVec S800000 32) : IVec S800000x1 32 :=
  broadcastInDim S800000x1 ![0] bcast_S800000_S800000x1_0
    (select (cmpi .slt x (broadcastInDim S800000 ![] bcast_S_S800000 (constantI S_ 32 0#32)))
      (addi x (broadcastInDim S800000 ![] bcast_S_S800000 (constantI S_ 32 50000#32))) x)

/-- The gated messages: the rows of `a0` the start indices name, each times its edge's gate. -/
def msg (a0 : FVec F S2x50000x64 .f32) (src : IVec S800000x1 32) (a4 : FVec F S800000 .f32) : FVec F S2x800000x64 .f32 :=
  mulf (Host.gather gather_S2x50000x64_S800000x1_S2x800000x64_02_1_n_n_1_1_2164 a0 src)
    (broadcastInDim S2x800000x64 ![0, 1, 2] bcast_S1x800000x1_S2x800000x64_0_1_2
      (shapeCast S1x800000x1 a4 shapeCasts_S800000_S1x800000x1))

/-- The zero array the accumulation starts from. -/
def zeros : FVec F S2x50000x64 .f32 :=
  broadcastInDim S2x50000x64 ![] bcast_S_S2x50000x64 (constant S_ .f32 0x00000000#32)

/-- The aggregated neighbours: the messages gathered at the sources added at the destinations, then the messages
    gathered at the destinations added at the sources. -/
def nbr (a0 : FVec F S2x50000x64 .f32) (a1 : IVec S800000x2 32) (a4 : FVec F S800000 .f32) : FVec F S2x50000x64 .f32 :=
  Host.scatterAdd scatter_S2x50000x64_S800000x1_S2x800000x64_02_1_1_1
    (Host.scatterAdd scatter_S2x50000x64_S800000x1_S2x800000x64_02_1_1_1 zeros (wrap (col1 a1)) (msg a0 (wrap (col0 a1)) a4))
    (wrap (col0 a1)) (msg a0 (wrap (col1 a1)) a4)

/-- The leaky rectifier on an array. -/
def leaky (s : FVec F S2x50000x64 .f32) : FVec F S2x50000x64 .f32 :=
  select (cmpf .oge s (broadcastInDim S2x50000x64 ![] bcast_S_S2x50000x64 (constant S_ .f32 0x00000000#32))) s
    (mulf (broadcastInDim S2x50000x64 ![] bcast_S_S2x50000x64 (constant S_ .f32 0x3C23D70A#32)) s)

/-- The reference's result. -/
def out (a0 : FVec F S2x50000x64 .f32) (a1 : IVec S800000x2 32) (a2 a3 : FVec F S2x50000x64 .f32)
    (a4 : FVec F S800000 .f32) (a5 : FVec F S64x64 .f32) : FVec F S2x50000x64 .f32 :=
  leaky (addf (addf a2 (Host.dotGeneral dot_S2x50000x64_S64x64_S2x50000x64_2_1_01_0_n_n none (nbr a0 a1 a4) a5)) a3)

end Cert.ReferenceIdeal.Term

end
-- ==== Proof.RefRun.lean ====
/-
  The reference program's run. Its @main is a straight line of host operations: the fifty of its own body, then the
  seven of the leaky rectifier it calls (a zero and a slope constant, their broadcasts, the comparison with zero, the
  product with the slope, and the selection between the value and the product, which is the body of the selection
  function the rectifier calls in turn). Listed in order, the line is run by the library's theorem for straight lines:
  every weakly fair execution terminates, and every buffer ends at the fold of the operations' results over the
  contents at launch. Read at the result buffer, that fold is the composed term `Term.out` of the six argument
  arrays, by computation; read at an argument buffer it is what was there, since no operation writes an argument.
-/
import proofs.«157130_j70669391888820_2_alg».proof.Proof.Gen.ReferenceIdeal
import proofs.«157130_j70669391888820_2_alg».proof.Proof.RefTerm
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem
  Idealize.ShloMosaic.StableHlo

variable {F : FTy → Type} [FloatOps F]

/-- @main's operations in order, the two calls unfolded: its own fifty (the two columns of the edge list; the gate
    reshaped; for each of the four uses of a column the wrapping of negative node numbers, a zero and the node count
    broadcast, the comparison, the sum and the selection, then the column of start indices; the two gathers, each
    times the broadcast gate; the zero array and the two accumulating scatters; the contraction with the weight and
    the two residual sums), then the rectifier's six over the call's buffers, then the selection function's one, whose
    result buffer is @main's result. -/
abbrev ops : List (HloOp τ sig (Elt F)) :=
  [
    StableHlo.unary main_arg1 main_v0 ((extractStridedSlice S800000x1 ![0, 0] · slices_S800000x2_S800000x1_0_0) : (⟨S800000x2, .i32⟩ : BufTy).Contents (Elt F) → (⟨S800000x1, .i32⟩ : BufTy).Contents (Elt F)),
    StableHlo.reshape main_v0 main_v1 rfl shapeCasts_S800000x1_S800000,
    StableHlo.unary main_arg1 main_v2 ((extractStridedSlice S800000x1 ![0, 1] · slices_S800000x2_S800000x1_0_1) : (⟨S800000x2, .i32⟩ : BufTy).Contents (Elt F) → (⟨S800000x1, .i32⟩ : BufTy).Contents (Elt F)),
    StableHlo.reshape main_v2 main_v3 rfl shapeCasts_S800000x1_S800000,
    StableHlo.reshape main_arg4 main_v4 rfl shapeCasts_S800000_S1x800000x1,
    StableHlo.nullary main_c (constantI S_ 32 0#32),
    StableHlo.unary main_c main_v5 (broadcastInDim S800000 ![] bcast_S_S800000 : (⟨S_, .i32⟩ : BufTy).Contents (Elt F) → (⟨S800000, .i32⟩ : BufTy).Contents (Elt F)),
    StableHlo.binary main_v1 main_v5 main_v6 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v7 (broadcastInDim S800000 ![] bcast_S_S800000 : (⟨S_, .i32⟩ : BufTy).Contents (Elt F) → (⟨S800000, .i32⟩ : BufTy).Contents (Elt F)),
    StableHlo.binary main_v1 main_v7 main_v8 (addi : (⟨S800000, .i32⟩ : BufTy).Contents (Elt F) → (⟨S800000, .i32⟩ : BufTy).Contents (Elt F) → (⟨S800000, .i32⟩ : BufTy).Contents (Elt F)),
    StableHlo.ternary main_v6 main_v8 main_v1 main_v9 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v9 main_v10 (broadcastInDim S800000x1 ![0] bcast_S800000_S800000x1_0 : (⟨S800000, .i32⟩ : BufTy).Contents (Elt F) → (⟨S800000x1, .i32⟩ : BufTy).Contents (Elt F)),
    StableHlo.binary main_arg0 main_v10 main_v11 ((fun x i => Host.gather gather_S2x50000x64_S800000x1_S2x800000x64_02_1_n_n_1_1_2164 x i) : (⟨S2x50000x64, .f32⟩ : BufTy).Contents (Elt F) → (⟨S800000x1, .i32⟩ : BufTy).Contents (Elt F) → (⟨S2x800000x64, .f32⟩ : BufTy).Contents (Elt F)),
    StableHlo.unary main_v4 main_v12 (broadcastInDim S2x800000x64 ![0, 1, 2] bcast_S1x800000x1_S2x800000x64_0_1_2 : (⟨S1x800000x1, .f32⟩ : BufTy).Contents (Elt F) → (⟨S2x800000x64, .f32⟩ : BufTy).Contents (Elt F)),
    StableHlo.binary main_v11 main_v12 main_v13 (mulf : (⟨S2x800000x64, .f32⟩ : BufTy).Contents (Elt F) → (⟨S2x800000x64, .f32⟩ : BufTy).Contents (Elt F) → (⟨S2x800000x64, .f32⟩ : BufTy).Contents (Elt F)),
    StableHlo.nullary main_c_1 (constantI S_ 32 0#32),
    StableHlo.unary main_c_1 main_v14 (broadcastInDim S800000 ![] bcast_S_S800000 : (⟨S_, .i32⟩ : BufTy).Contents (Elt F) → (⟨S800000, .i32⟩ : BufTy).Contents (Elt F)),
    StableHlo.binary main_v3 main_v14 main_v15 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v16 (broadcastInDim S800000 ![] bcast_S_S800000 : (⟨S_, .i32⟩ : BufTy).Contents (Elt F) → (⟨S800000, .i32⟩ : BufTy).Contents (Elt F)),
    StableHlo.binary main_v3 main_v16 main_v17 (addi : (⟨S800000, .i32⟩ : BufTy).Contents (Elt F) → (⟨S800000, .i32⟩ : BufTy).Contents (Elt F) → (⟨S800000, .i32⟩ : BufTy).Contents (Elt F)),
    StableHlo.ternary main_v15 main_v17 main_v3 main_v18 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v18 main_v19 (broadcastInDim S800000x1 ![0] bcast_S800000_S800000x1_0 : (⟨S800000, .i32⟩ : BufTy).Contents (Elt F) → (⟨S800000x1, .i32⟩ : BufTy).Contents (Elt F)),
    StableHlo.binary main_arg0 main_v19 main_v20 ((fun x i => Host.gather gather_S2x50000x64_S800000x1_S2x800000x64_02_1_n_n_1_1_2164 x i) : (⟨S2x50000x64, .f32⟩ : BufTy).Contents (Elt F) → (⟨S800000x1, .i32⟩ : BufTy).Contents (Elt F) → (⟨S2x800000x64, .f32⟩ : BufTy).Contents (Elt F)),
    StableHlo.unary main_v4 main_v21 (broadcastInDim S2x800000x64 ![0, 1, 2] bcast_S1x800000x1_S2x800000x64_0_1_2 : (⟨S1x800000x1, .f32⟩ : BufTy).Contents (Elt F) → (⟨S2x800000x64, .f32⟩ : BufTy).Contents (Elt F)),
    StableHlo.binary main_v20 main_v21 main_v22 (mulf : (⟨S2x800000x64, .f32⟩ : BufTy).Contents (Elt F) → (⟨S2x800000x64, .f32⟩ : BufTy).Contents (Elt F) → (⟨S2x800000x64, .f32⟩ : BufTy).Contents (Elt F)),
    StableHlo.nullary main_cst (constant S_ .f32 0x00000000#32),
    StableHlo.unary main_cst main_v23 (broadcastInDim S2x50000x64 ![] bcast_S_S2x50000x64 : (⟨S_, .f32⟩ : BufTy).Contents (Elt F) → (⟨S2x50000x64, .f32⟩ : BufTy).Contents (Elt F)),
    StableHlo.nullary main_c_3 (constantI S_ 32 0#32),
    StableHlo.unary main_c_3 main_v24 (broadcastInDim S800000 ![] bcast_S_S800000 : (⟨S_, .i32⟩ : BufTy).Contents (Elt F) → (⟨S800000, .i32⟩ : BufTy).Contents (Elt F)),
    StableHlo.binary main_v3 main_v24 main_v25 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v26 (broadcastInDim S800000 ![] bcast_S_S800000 : (⟨S_, .i32⟩ : BufTy).Contents (Elt F) → (⟨S800000, .i32⟩ : BufTy).Contents (Elt F)),
    StableHlo.binary main_v3 main_v26 main_v27 (addi : (⟨S800000, .i32⟩ : BufTy).Contents (Elt F) → (⟨S800000, .i32⟩ : BufTy).Contents (Elt F) → (⟨S800000, .i32⟩ : BufTy).Contents (Elt F)),
    StableHlo.ternary main_v25 main_v27 main_v3 main_v28 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v28 main_v29 (broadcastInDim S800000x1 ![0] bcast_S800000_S800000x1_0 : (⟨S800000, .i32⟩ : BufTy).Contents (Elt F) → (⟨S800000x1, .i32⟩ : BufTy).Contents (Elt F)),
    StableHlo.ternary main_v23 main_v29 main_v13 main_v30 ((fun x i u => Host.scatterAdd scatter_S2x50000x64_S800000x1_S2x800000x64_02_1_1_1 x i u) : (⟨S2x50000x64, .f32⟩ : BufTy).Contents (Elt F) → (⟨S800000x1, .i32⟩ : BufTy).Contents (Elt F) → (⟨S2x800000x64, .f32⟩ : BufTy).Contents (Elt F) → (⟨S2x50000x64, .f32⟩ : BufTy).Contents (Elt F)),
    StableHlo.nullary main_c_5 (constantI S_ 32 0#32),
    StableHlo.unary main_c_5 main_v31 (broadcastInDim S800000 ![] bcast_S_S800000 : (⟨S_, .i32⟩ : BufTy).Contents (Elt F) → (⟨S800000, .i32⟩ : BufTy).Contents (Elt F)),
    StableHlo.binary main_v1 main_v31 main_v32 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v33 (broadcastInDim S800000 ![] bcast_S_S800000 : (⟨S_, .i32⟩ : BufTy).Contents (Elt F) → (⟨S800000, .i32⟩ : BufTy).Contents (Elt F)),
    StableHlo.binary main_v1 main_v33 main_v34 (addi : (⟨S800000, .i32⟩ : BufTy).Contents (Elt F) → (⟨S800000, .i32⟩ : BufTy).Contents (Elt F) → (⟨S800000, .i32⟩ : BufTy).Contents (Elt F)),
    StableHlo.ternary main_v32 main_v34 main_v1 main_v35 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v35 main_v36 (broadcastInDim S800000x1 ![0] bcast_S800000_S800000x1_0 : (⟨S800000, .i32⟩ : BufTy).Contents (Elt F) → (⟨S800000x1, .i32⟩ : BufTy).Contents (Elt F)),
    StableHlo.ternary main_v30 main_v36 main_v22 main_v37 ((fun x i u => Host.scatterAdd scatter_S2x50000x64_S800000x1_S2x800000x64_02_1_1_1 x i u) : (⟨S2x50000x64, .f32⟩ : BufTy).Contents (Elt F) → (⟨S800000x1, .i32⟩ : BufTy).Contents (Elt F) → (⟨S2x800000x64, .f32⟩ : BufTy).Contents (Elt F) → (⟨S2x50000x64, .f32⟩ : BufTy).Contents (Elt F)),
    StableHlo.binary main_v37 main_arg5 main_v38 ((fun l r => Host.dotGeneral dot_S2x50000x64_S64x64_S2x50000x64_2_1_01_0_n_n none l r) : (⟨S2x50000x64, .f32⟩ : BufTy).Contents (Elt F) → (⟨S64x64, .f32⟩ : BufTy).Contents (Elt F) → (⟨S2x50000x64, .f32⟩ : BufTy).Contents (Elt F)),
    StableHlo.binary main_arg2 main_v38 main_v39 (addf : (⟨S2x50000x64, .f32⟩ : BufTy).Contents (Elt F) → (⟨S2x50000x64, .f32⟩ : BufTy).Contents (Elt F) → (⟨S2x50000x64, .f32⟩ : BufTy).Contents (Elt F)),
    StableHlo.binary main_v39 main_arg3 main_v40 (addf : (⟨S2x50000x64, .f32⟩ : BufTy).Contents (Elt F) → (⟨S2x50000x64, .f32⟩ : BufTy).Contents (Elt F) → (⟨S2x50000x64, .f32⟩ : BufTy).Contents (Elt F)),
    TRef.nullary main_call0.cst (constant S_ .f32 0x00000000#32),
    TRef.unary main_call0.cst main_call0.v0 (broadcastInDim S2x50000x64 ![] bcast_S_S2x50000x64),
    TRef.binary (.of main_v40) main_call0.v0 main_call0.v1 (cmpf .oge),
    TRef.nullary main_call0.cst_0 (constant S_ .f32 0x3C23D70A#32),
    TRef.unary main_call0.cst_0 main_call0.v2 (broadcastInDim S2x50000x64 ![] bcast_S_S2x50000x64),
    TRef.binary main_call0.v2 (.of main_v40) main_call0.v3 mulf,
    TRef.ternary main_call0.v1 (.of main_v40) main_call0.v3 main_call0.call0.v0 select ]

-- fifty-seven binds re-associated: the rewriting under the chain recurses once per statement
set_option maxRecDepth 4096 in
/-- @main is that straight line: the two functions' definitions unfolded at their calls and the call's record at its
    fields, both sides are one chain of host steps once sequencing is re-associated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨
    unary_bufs_sub .., reshape_bufs_sub .., unary_bufs_sub .., reshape_bufs_sub .., reshape_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., binary_bufs_sub .., nullary_bufs_sub .., unary_bufs_sub .., nullary_bufs_sub ..,
    unary_bufs_sub .., binary_bufs_sub .., nullary_bufs_sub .., unary_bufs_sub .., binary_bufs_sub .., ternary_bufs_sub ..,
    unary_bufs_sub .., ternary_bufs_sub .., nullary_bufs_sub .., unary_bufs_sub .., binary_bufs_sub .., nullary_bufs_sub ..,
    unary_bufs_sub .., binary_bufs_sub .., ternary_bufs_sub .., unary_bufs_sub .., ternary_bufs_sub .., binary_bufs_sub ..,
    binary_bufs_sub .., binary_bufs_sub .., nullary_bufs_sub .., unary_bufs_sub .., binary_bufs_sub .., nullary_bufs_sub ..,
    unary_bufs_sub .., binary_bufs_sub .., ternary_bufs_sub ..⟩

attribute [local irreducible] Host.gather Host.scatterAdd in
set_option maxRecDepth 8192 in
set_option maxHeartbeats 400000 in
/-- The fold at the result buffer is the composed term: the fold unrolled, each operation's result decides whether
    the buffer read is the one it writes, and the typed references' casts are the identity at these literal
    references — all of it by computation. The gather and the accumulating scatter are kept folded meanwhile: the
    equation never looks inside them (the contraction is a field of the float operations, with nothing to open). -/
theorem out_eq (V : Valuation τ sig (Elt F)) :
    after ops V (main_v41 : DevRef τ sig)
      = Term.out (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

/-! No operation writes an argument's buffer: the fold leaves each at its launch contents. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

/-- On every device, for any float values, from any memory with zero counters: every weakly fair execution of
    @main terminates with the result buffer at the composed term of the arguments' launch contents and the six
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41)
        = Cert.ReferenceIdeal.Term.out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v41).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m ρ)

end Cert.ReferenceIdeal.HandRun

end
-- ==== Proof.Spec.lean ====
/-
  The dense stage as ONE function of whole arrays, over the extended reals.

  Row `r` of the flattened node axis (`r = b · 50000 + n`) and feature `e`:
  `lrelu (node[r, e] + Σ_k nbr[r, k] · wt[k, e] + edge[r, e])`, where `lrelu s` is `s` when `s ≥ 0` and
  `slope · s` otherwise, the zero and the slope being the two f32 words both programs print.
  The same function on the unflattened arrays, with the weight read transposed (`W[e, k]`), is `out`.
-/
import Idealize.ShloMosaic.PureOps.Ideal
import Idealize.ShloMosaic.Lib.ValueIdx

noncomputable section

open scoped BigOperators

namespace Cert.Spec

open Idealize.ShloMosaic Idealize.ShloMosaic.ValueIdx

/-- The leaky rectifier on an extended real: the comparison with the zero word decides between the value and the
    slope word times the value. -/
def lrelu (s : EReal) : EReal :=
  Scalar.select (FloatOps.cmpf (F := Ideal) (φ := .f32) .oge s (Ideal.ofBits .f32 0x00000000#32)) s
    (Ideal.ofBits .f32 0x3C23D70A#32 * s)

/-- One entry of the dense stage on the flattened arrays: row `r`, feature `e`. -/
def denseAt (x0 x1 x2 : (⟨2, ![100000, 64]⟩ : Shape).Idx → EReal) (x3 : (⟨2, ![64, 64]⟩ : Shape).Idx → EReal)
    (r : Fin 100000) (e : Fin 64) : EReal :=
  lrelu ((x1 (ix2 r e) + ∑ k : Fin 64, x0 (ix2 r k) * x3 (ix2 k e)) + x2 (ix2 r e))

/-- The dense stage on the flattened arrays: `x0` the aggregated neighbours, `x1` the node features, `x2` the edge
    features, `x3` the weight as the matrix unit reads it (contraction index first). -/
def dense (x0 x1 x2 : (⟨2, ![100000, 64]⟩ : Shape).Idx → EReal) (x3 : (⟨2, ![64, 64]⟩ : Shape).Idx → EReal) :
    (⟨2, ![100000, 64]⟩ : Shape).Idx → EReal :=
  fun j => denseAt x0 x1 x2 x3 (j 0) (j 1)

/-- One entry of the result on the unflattened arrays: batch `b`, node `n`, feature `e`; the weight is read as
    `W[e, k]` (a linear layer without bias applies the transpose). -/
def outAt (nbr node edge : (⟨3, ![2, 50000, 64]⟩ : Shape).Idx → EReal) (W : (⟨2, ![64, 64]⟩ : Shape).Idx → EReal)
    (b : Fin 2) (n : Fin 50000) (e : Fin 64) : EReal :=
  lrelu ((node (ix3 b n e) + ∑ k : Fin 64, nbr (ix3 b n k) * W (ix2 e k)) + edge (ix3 b n e))

/-- The result on the unflattened arrays. -/
def out (nbr node edge : (⟨3, ![2, 50000, 64]⟩ : Shape).Idx → EReal) (W : (⟨2, ![64, 64]⟩ : Shape).Idx → EReal) :
    (⟨3, ![2, 50000, 64]⟩ : Shape).Idx → EReal :=
  fun i => outAt nbr node edge W (i 0) (i 1) (i 2)

end Cert.Spec

end
-- ==== Proof.Nbr.lean ====
/-
  The neighbour aggregation as ONE function of the argument arrays, over the extended reals.

  Each edge `e` has two endpoints, read off the edge list as words; a negative word counts from the end (the node
  count is added). A message along `e` from endpoint `s` to endpoint `t` is row `s` of the embeddings (the word
  read signed and clamped into the node range, as a gather clamps) times the edge's gate, and it is added at node `t`
  exactly when `t`'s word, read signed, is that node's number (a word outside the node range lands nowhere).
  `half dst src` sums the messages landing at one node; the aggregation is the zero word, plus the messages sent from
  the first endpoints to the second, plus the messages sent from the second endpoints to the first.
-/
import Idealize.ShloMosaic.PureOps.Ideal
import Idealize.ShloMosaic.Lib.ValueIdx

noncomputable section

open scoped BigOperators

namespace Cert.Spec

open Idealize.ShloMosaic Idealize.ShloMosaic.ValueIdx

/-- A node number as a start index: a negative word has the node count added. -/
def wrapWord (x : BitVec 32) : BitVec 32 :=
  Scalar.select (IntOp.cmpi .slt x 0#32) (IntOp.addi x 50000#32) x

/-- The row a gather reads for a start index: the word read signed, clamped into the node range. -/
def row (x : BitVec 32) : Fin 50000 := ⟨min x.toInt.toNat (50000 - 1), by omega⟩

/-- The messages landing at node `n`: over the edges whose `dst` word is `n`, the embedding row the `src` word
    names, entry `(b, ·, d)`, times the edge's gate. -/
def half (P : (⟨3, ![2, 50000, 64]⟩ : Shape).Idx → EReal) (g : (⟨1, ![800000]⟩ : Shape).Idx → EReal)
    (dst src : Fin 800000 → BitVec 32) (b : Fin 2) (n : Fin 50000) (d : Fin 64) : EReal :=
  ∑ e : Fin 800000, if (dst e).toInt = (n.val : ℤ) then P (ix3 b (row (src e)) d) * g (ix1 e) else 0

/-- Edge `e`'s first endpoint, as a start index. -/
def srcOf (E : IVec ⟨2, ![800000, 2]⟩ 32) (e : Fin 800000) : BitVec 32 := wrapWord (E (ix2 e (0 : Fin 2)))

/-- Edge `e`'s second endpoint, as a start index. -/
def dstOf (E : IVec ⟨2, ![800000, 2]⟩ 32) (e : Fin 800000) : BitVec 32 := wrapWord (E (ix2 e (1 : Fin 2)))

/-- One entry of the aggregated neighbours. -/
def nbrAt (P : (⟨3, ![2, 50000, 64]⟩ : Shape).Idx → EReal) (E : IVec ⟨2, ![800000, 2]⟩ 32)
    (g : (⟨1, ![800000]⟩ : Shape).Idx → EReal) (b : Fin 2) (n : Fin 50000) (d : Fin 64) : EReal :=
  (Ideal.ofBits .f32 0x00000000#32 + half P g (dstOf E) (srcOf E) b n d) + half P g (srcOf E) (dstOf E) b n d

/-- The aggregated neighbours. -/
def nbr (P : (⟨3, ![2, 50000, 64]⟩ : Shape).Idx → EReal) (E : IVec ⟨2, ![800000, 2]⟩ 32)
    (g : (⟨1, ![800000]⟩ : Shape).Idx → EReal) : (⟨3, ![2, 50000, 64]⟩ : Shape).Idx → EReal :=
  fun i => nbrAt P E g (i 0) (i 1) (i 2)

end Cert.Spec

end
-- ==== Proof.LibRowScatter.lean ====
/-
  Whole rows gathered and scattered along the node axis, read at an index.

  The operand is an array over (batch, node, feature) of extents `B, N, D`; the indices are a column of `M` words,
  each naming a node; the other array is over (batch, index, feature) of extents `B, M, D`.
  * An ACCUMULATING SCATTER adds update row `e` to operand row `idx[e]` (read signed; a row outside `[0, N)` is
    dropped). At the extended reals entry `(b, n, d)` of the result is the operand's entry plus the sum, over the
    rows `e` with `idx[e] = n`, of update entry `(b, e, d)` (`hostScatterAdd_rows_apply`), because an update entry
    `(b, e, d)` lands exactly at `(b, idx[e], d)` (`resultIdx?_rows`).
  * A GATHER reads operand row `idx[e]`, read signed and clamped into `[0, N − 1]`, into result row `e`
    (`gather_rows_apply`).
  * A sum over a range of doubled length splits into its two halves (`sum_two_halves`), which is how one scatter of
    two update lists laid end to end is compared with two scatters in a row.
-/
import Idealize.ShloMosaic.PureOps.Ideal
import Idealize.ShloMosaic.Lib.ValueIdx

noncomputable section
open scoped BigOperators
namespace Cert.LibRows

open Idealize.ShloMosaic Idealize.ShloMosaic.ValueIdx

/-- The dimension numbers of a scatter of whole rows: update axes 0 and 2 are window axes, operand axis 1 is the
    inserted one and the one the index names. -/
abbrev rowScatterDims (B N D M : Nat)
    (wf : ScatterDims.WF ⟨3, ![B, N, D]⟩ ⟨2, ![M, 1]⟩ ⟨3, ![B, M, D]⟩ [0, 2] [1] [1] 1) :
    ScatterDims ⟨3, ![B, N, D]⟩ ⟨2, ![M, 1]⟩ ⟨3, ![B, M, D]⟩ where
  updateWindowDims := [0, 2]
  insertedWindowDims := [1]
  scatterDimsToOperandDims := [1]
  indexVectorDim := 1
  wf := wf

variable {B N D M w : Nat} (wf : ScatterDims.WF ⟨3, ![B, N, D]⟩ ⟨2, ![M, 1]⟩ ⟨3, ![B, M, D]⟩ [0, 2] [1] [1] 1)

/-- On the node axis an update's start is its row's index word, read signed. -/
theorem start1 (j : (⟨3, ![B, M, D]⟩ : Shape).Idx) (idx : IVec ⟨2, ![M, 1]⟩ w) :
    (rowScatterDims B N D M wf).start j idx 1 = (idx (ix2 (j 1) (0 : Fin 1))).toInt := by
  unfold ScatterDims.start
  rw [dif_pos (show (1 : Fin 3) ∈ (rowScatterDims B N D M wf).scatterDimsToOperandDims from List.mem_singleton.mpr rfl)]
  congr 2
  funext b; refine Fin.ext ?_
  match b with
  | ⟨0, _⟩ => rfl
  | ⟨1, _⟩ => rfl

/-- Update entry `(b, e, d)` lands at `(b', n, d')` exactly when the batch and the feature agree and row `e`'s index
    word, read signed, is `n`. -/
theorem resultIdx?_rows (e : Fin M) (b : Fin B) (d : Fin D) (idx : IVec ⟨2, ![M, 1]⟩ w) (b' : Fin B) (n : Fin N) (d' : Fin D) :
    (rowScatterDims B N D M wf).resultIdx? (ix3 b e d) idx = some (ix3 b' n d') ↔
      b' = b ∧ d' = d ∧ (idx (ix2 e (0 : Fin 1))).toInt = (n.val : ℤ) := by
  have hs : (rowScatterDims B N D M wf).start (ix3 b e d) idx 1 = (idx (ix2 e (0 : Fin 1))).toInt := start1 wf _ idx
  unfold ScatterDims.resultIdx?
  split
  · next h =>
    rw [Option.some.injEq]
    constructor
    · intro hf
      have h0 := congrArg (fun f => (f 0).val) hf
      have h1 := congrArg (fun f => (f 1).val) hf
      have h2 := congrArg (fun f => (f 2).val) hf
      have g1 := (h 1).1
      simp only at h0 h1 h2
      refine ⟨Fin.ext ?_, Fin.ext ?_, ?_⟩
      · have : ((0 : ℤ) + ((b.val : ℕ) : ℤ)).toNat = b'.val := h0
        omega
      · have : ((0 : ℤ) + ((d.val : ℕ) : ℤ)).toNat = d'.val := h2
        omega
      · have e1 : ((rowScatterDims B N D M wf).start (ix3 b e d) idx 1 + ((0 : ℕ) : ℤ)).toNat = n.val := h1
        have e2 : 0 ≤ (rowScatterDims B N D M wf).start (ix3 b e d) idx 1 + ((0 : ℕ) : ℤ) := g1
        rw [hs] at e1 e2
        omega
    · rintro ⟨rfl, rfl, hx⟩
      funext a
      refine Fin.ext ?_
      match a with
      | ⟨0, _⟩ => show ((0 : ℤ) + ((b'.val : ℕ) : ℤ)).toNat = b'.val; omega
      | ⟨1, _⟩ =>
        show ((rowScatterDims B N D M wf).start (ix3 b' e d') idx 1 + ((0 : ℕ) : ℤ)).toNat = n.val
        rw [hs, hx]; omega
      | ⟨2, _⟩ => show ((0 : ℤ) + ((d'.val : ℕ) : ℤ)).toNat = d'.val; omega
  · next h =>
    constructor
    · intro hf; exact absurd hf (by simp)
    · rintro ⟨rfl, rfl, hx⟩
      exfalso; apply h
      intro a
      match a with
      | ⟨0, _⟩ =>
        show 0 ≤ (0 : ℤ) + ((b'.val : ℕ) : ℤ) ∧ (0 : ℤ) + ((b'.val : ℕ) : ℤ) < ((B : ℕ) : ℤ)
        have := b'.isLt; omega
      | ⟨1, _⟩ =>
        show 0 ≤ (rowScatterDims B N D M wf).start (ix3 b' e d') idx 1 + ((0 : ℕ) : ℤ)
          ∧ (rowScatterDims B N D M wf).start (ix3 b' e d') idx 1 + ((0 : ℕ) : ℤ) < ((N : ℕ) : ℤ)
        rw [hs, hx]; have := n.isLt; omega
      | ⟨2, _⟩ =>
        show 0 ≤ (0 : ℤ) + ((d'.val : ℕ) : ℤ) ∧ (0 : ℤ) + ((d'.val : ℕ) : ℤ) < ((D : ℕ) : ℤ)
        have := d'.isLt; omega

/-- The accumulating row scatter read at `(b, n, d)`. -/
theorem hostScatterAdd_rows_apply (x : (⟨3, ![B, N, D]⟩ : Shape).Idx → EReal) (idx : IVec ⟨2, ![M, 1]⟩ w)
    (upd : (⟨3, ![B, M, D]⟩ : Shape).Idx → EReal) (b : Fin B) (n : Fin N) (d : Fin D) :
    Ideal.hostScatterAdd (rowScatterDims B N D M wf) x idx upd (ix3 b n d)
      = x (ix3 b n d) + ∑ e : Fin M, if (idx (ix2 e (0 : Fin 1))).toInt = (n.val : ℤ) then upd (ix3 b e d) else 0 := by
  unfold Ideal.hostScatterAdd
  refine congrArg (x (ix3 b n d) + ·) ?_
  rw [← Finset.sum_filter]
  refine Finset.sum_nbij' (fun j => (j 1 : Fin M)) (fun e => ix3 b e d) ?_ ?_ ?_ ?_ ?_
  · intro j hj
    have hj' := (Finset.mem_filter.mp hj).2
    rw [eq_ix3 j] at hj'
    exact Finset.mem_filter.mpr ⟨Finset.mem_univ _, ((resultIdx?_rows wf _ _ _ idx b n d).mp hj').2.2⟩
  · intro e he
    have he' := (Finset.mem_filter.mp he).2
    exact Finset.mem_filter.mpr ⟨Finset.mem_univ _, (resultIdx?_rows wf e b d idx b n d).mpr ⟨rfl, rfl, he'⟩⟩
  · intro j hj
    have hj' := (Finset.mem_filter.mp hj).2
    rw [eq_ix3 j] at hj'
    obtain ⟨h0, h2, -⟩ := (resultIdx?_rows wf _ _ _ idx b n d).mp hj'
    have hjj : j = ix3 b (j 1) d := by rw [h0, h2]; exact eq_ix3 j
    exact hjj.symm
  · intro e _; rfl
  · intro j hj
    have hj' := (Finset.mem_filter.mp hj).2
    rw [eq_ix3 j] at hj'
    obtain ⟨h0, h2, -⟩ := (resultIdx?_rows wf _ _ _ idx b n d).mp hj'
    have hjj : j = ix3 b (j 1) d := by rw [h0, h2]; exact eq_ix3 j
    exact congrArg upd hjj

/-- A sum over a range of doubled length is the sum over its first half plus the sum over its second half. -/
theorem sum_two_halves {K K2 : Nat} (h : K2 = K + K) (f : Fin K2 → EReal) :
    ∑ e, f e = ∑ e : Fin K, f ⟨e.val, by omega⟩ + ∑ e : Fin K, f ⟨K + e.val, by omega⟩ := by
  subst h
  rw [Fin.sum_univ_add]
  rfl

/-- The dimension numbers of a gather of whole rows: the operand over (batch, node, feature), a column of `M` start
    indices naming nodes, the result over (batch, index, feature). -/
abbrev rowGatherDims (B N D M : Nat)
    (wf : GatherDims.WF ⟨3, ![B, N, D]⟩ ⟨2, ![M, 1]⟩ ⟨3, ![B, M, D]⟩ [0, 2] [1] [] [1] [] 1 ![B, 1, D]) :
    GatherDims ⟨3, ![B, N, D]⟩ ⟨2, ![M, 1]⟩ ⟨3, ![B, M, D]⟩ where
  offsetDims := [0, 2]
  collapsedSliceDims := [1]
  operandBatchingDims := []
  startIndicesBatchingDims := []
  startIndexMap := [1]
  indexVectorDim := 1
  sliceSizes := ![B, 1, D]
  wf := wf

/-- The row gather read at `(b, e, d)`: the operand at row `idx[e]`, read signed and clamped into `[0, N − 1]`. -/
theorem gather_rows_apply {α : Type} (hN : 0 < N)
    (wfg : GatherDims.WF ⟨3, ![B, N, D]⟩ ⟨2, ![M, 1]⟩ ⟨3, ![B, M, D]⟩ [0, 2] [1] [] [1] [] 1 ![B, 1, D])
    (x : (⟨3, ![B, N, D]⟩ : Shape).Idx → α) (idx : IVec ⟨2, ![M, 1]⟩ w) (b : Fin B) (e : Fin M) (d : Fin D) :
    Host.gather (rowGatherDims B N D M wfg) x idx (ix3 b e d)
      = x (ix3 b ⟨min (idx (ix2 e (0 : Fin 1))).toInt.toNat (N - 1), by omega⟩ d) := by
  unfold Host.gather
  refine congrArg x (funext fun a => Fin.ext ?_)
  have hst : (rowGatherDims B N D M wfg).start (ix3 b e d) idx 1 = min (idx (ix2 e (0 : Fin 1))).toInt.toNat (N - 1) := by
    unfold GatherDims.start
    rw [dif_pos (show (1 : Fin 3) ∈ (rowGatherDims B N D M wfg).startIndexMap from List.mem_singleton.mpr rfl)]
    have hsi : (rowGatherDims B N D M wfg).siIdx (ix3 b e d) ⟨List.idxOf (1 : Fin 3) (rowGatherDims B N D M wfg).startIndexMap,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl
  match a with
  | ⟨0, _⟩ =>
    show (rowGatherDims B N D M wfg).start (ix3 b e d) idx 0 + (rowGatherDims B N D M wfg).batchCoord (ix3 b e d) 0
      + (rowGatherDims B N D M wfg).offCoord (ix3 b e d) 0 = b.val
    have h1 : (rowGatherDims B N D M wfg).start (ix3 b e d) idx 0 = 0 := rfl
    have h2 : (rowGatherDims B N D M wfg).batchCoord (ix3 b e d) 0 = 0 := rfl
    have h3 : (rowGatherDims B N D M wfg).offCoord (ix3 b e d) 0 = b.val := rfl
    rw [h1, h2, h3]; omega
  | ⟨1, _⟩ =>
    show (rowGatherDims B N D M wfg).start (ix3 b e d) idx 1 + (rowGatherDims B N D M wfg).batchCoord (ix3 b e d) 1
      + (rowGatherDims B N D M wfg).offCoord (ix3 b e d) 1 = min (idx (ix2 e (0 : Fin 1))).toInt.toNat (N - 1)
    have h2 : (rowGatherDims B N D M wfg).batchCoord (ix3 b e d) 1 = 0 := rfl
    have h3 : (rowGatherDims B N D M wfg).offCoord (ix3 b e d) 1 = 0 := rfl
    rw [hst, h2, h3]; rfl
  | ⟨2, _⟩ =>
    show (rowGatherDims B N D M wfg).start (ix3 b e d) idx 2 + (rowGatherDims B N D M wfg).batchCoord (ix3 b e d) 2
      + (rowGatherDims B N D M wfg).offCoord (ix3 b e d) 2 = d.val
    have h1 : (rowGatherDims B N D M wfg).start (ix3 b e d) idx 2 = 0 := rfl
    have h2 : (rowGatherDims B N D M wfg).batchCoord (ix3 b e d) 2 = 0 := rfl
    have h3 : (rowGatherDims B N D M wfg).offCoord (ix3 b e d) 2 = d.val := rfl
    rw [h1, h2, h3]; omega

end Cert.LibRows
end
-- ==== Proof.RefValue.lean ====
/-
  The reference's host chain, read at an index: its aggregated neighbours are `Spec.nbr` of the argument arrays and
  its result is `Spec.out` of them.
-/
import proofs.«157130_j70669391888820_2_alg».proof.Proof.Gen.ReferenceIdeal
import proofs.«157130_j70669391888820_2_alg».proof.Proof.RefTerm
import proofs.«157130_j70669391888820_2_alg».proof.Proof.Spec
import proofs.«157130_j70669391888820_2_alg».proof.Proof.Nbr
import proofs.«157130_j70669391888820_2_alg».proof.Proof.LibRowScatter
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Gen Cert.ReferenceIdeal.Facts₀
open Cert.ReferenceIdeal.Term Cert.LibRows

/-- Entry `e` of the first column is the edge list's entry `(e, 0)`. -/
theorem col0_apply (a1 : IVec S800000x2 32) (e : Fin 800000) : col0 a1 (ix1 e) = a1 (ix2 e (0 : Fin 2)) := by
  unfold col0
  refine (shapeCast_apply _ _ (ix1 e) (ix2 e (0 : Fin 1)) ?_).trans ?_
  · rw [Shape.rowMajor_val_two, Shape.rowMajor_val_one]; show e.val * 1 + 0 = e.val; omega
  · refine extractStridedSlice_apply _ _ _ _ (ix2 e (0 : Fin 2)) ?_
    intro a
    match a with
    | ⟨0, _⟩ => show e.val = 0 + e.val; omega
    | ⟨1, _⟩ => rfl

/-- Entry `e` of the second column is the edge list's entry `(e, 1)`. -/
theorem col1_apply (a1 : IVec S800000x2 32) (e : Fin 800000) : col1 a1 (ix1 e) = a1 (ix2 e (1 : Fin 2)) := by
  unfold col1
  refine (shapeCast_apply _ _ (ix1 e) (ix2 e (0 : Fin 1)) ?_).trans ?_
  · rw [Shape.rowMajor_val_two, Shape.rowMajor_val_one]; show e.val * 1 + 0 = e.val; omega
  · refine extractStridedSlice_apply _ _ _ _ (ix2 e (1 : Fin 2)) ?_
    intro a
    match a with
    | ⟨0, _⟩ => show e.val = 0 + e.val; omega
    | ⟨1, _⟩ => rfl

/-- Row `e` of the column of start indices is the wrapped word of entry `e`. -/
theorem wrap_apply (x : IVec S800000 32) (e : Fin 800000) : wrap x (ix2 e (0 : Fin 1)) = Cert.Spec.wrapWord (x (ix1 e)) := by
  unfold wrap
  refine (broadcastInDim_apply _ _ _ (ix2 e (0 : Fin 1)) (ix1 e) ?_).trans ?_
  · intro a
    match a with
    | ⟨0, _⟩ => rfl
  · rfl

/-- A gated message at `(b, e, d)`: the embedding row the start index names, times edge `e`'s gate. -/
theorem msg_apply (a0 : FVec Ideal S2x50000x64 .f32) (src : IVec S800000x1 32) (a4 : FVec Ideal S800000 .f32)
    (b : Fin 2) (e : Fin 800000) (d : Fin 64) :
    msg a0 src a4 (ix3 b e d) = a0 (ix3 b (Cert.Spec.row (src (ix2 e (0 : Fin 1)))) d) * a4 (ix1 e) := by
  unfold msg
  rw [mulf_apply]
  have hG : gather_S2x50000x64_S800000x1_S2x800000x64_02_1_n_n_1_1_2164
      = rowGatherDims 2 50000 64 800000 Facts₀.gather_S2x50000x64_S800000x1_S2x800000x64_02_1_n_n_1_1_2164_wf := rfl
  rw [hG, gather_rows_apply (by omega)]
  refine congrArg (a0 (ix3 b (Cert.Spec.row (src (ix2 e (0 : Fin 1)))) d) * ·) ?_
  refine (broadcastInDim_apply _ _ _ (ix3 b e d) (ix3 (0 : Fin 1) e (0 : Fin 1)) ?_).trans ?_
  · intro a
    match a with
    | ⟨0, _⟩ => rfl
    | ⟨1, _⟩ => rfl
    | ⟨2, _⟩ => rfl
  · refine shapeCast_apply _ _ (ix3 (0 : Fin 1) e (0 : Fin 1)) (ix1 e) ?_
    rw [Shape.rowMajor_val_three, Shape.rowMajor_val_one]
    show e.val = (0 * 800000 + e.val) * 1 + 0
    omega

/-- The program's accumulating scatter, read at `(b, n, d)`: the operand's entry plus the update rows whose index
    word is `n`. -/
theorem scatter_at (x : FVec Ideal S2x50000x64 .f32) (idx : IVec S800000x1 32) (upd : FVec Ideal S2x800000x64 .f32)
    (b : Fin 2) (n : Fin 50000) (d : Fin 64) :
    Host.scatterAdd scatter_S2x50000x64_S800000x1_S2x800000x64_02_1_1_1 x idx upd (ix3 b n d)
      = x (ix3 b n d) + ∑ e : Fin 800000, if (idx (ix2 e (0 : Fin 1))).toInt = (n.val : ℤ) then upd (ix3 b e d) else 0 :=
  hostScatterAdd_rows_apply (B := 2) (N := 50000) (D := 64) (M := 800000) (w := 32)
    Facts₀.scatter_S2x50000x64_S800000x1_S2x800000x64_02_1_1_1_wf x idx upd b n d

/-- A message of the first scatter: it lands at edge `e`'s second endpoint and reads the first. -/
theorem fwd_term (a0 : FVec Ideal S2x50000x64 .f32) (a1 : IVec S800000x2 32) (a4 : FVec Ideal S800000 .f32)
    (b : Fin 2) (n : Fin 50000) (d : Fin 64) (e : Fin 800000) :
    (if (wrap (col1 a1) (ix2 e (0 : Fin 1))).toInt = (n.val : ℤ)
      then msg a0 (wrap (col0 a1)) a4 (ix3 b e d) else 0)
    = (if (Cert.Spec.dstOf a1 e).toInt = (n.val : ℤ)
      then a0 (ix3 b (Cert.Spec.row (Cert.Spec.srcOf a1 e)) d) * a4 (ix1 e) else 0) := by
  rw [wrap_apply, msg_apply, wrap_apply, col1_apply, col0_apply]
  rfl

/-- A message of the second scatter: it lands at edge `e`'s first endpoint and reads the second. -/
theorem bwd_term (a0 : FVec Ideal S2x50000x64 .f32) (a1 : IVec S800000x2 32) (a4 : FVec Ideal S800000 .f32)
    (b : Fin 2) (n : Fin 50000) (d : Fin 64) (e : Fin 800000) :
    (if (wrap (col0 a1) (ix2 e (0 : Fin 1))).toInt = (n.val : ℤ)
      then msg a0 (wrap (col1 a1)) a4 (ix3 b e d) else 0)
    = (if (Cert.Spec.srcOf a1 e).toInt = (n.val : ℤ)
      then a0 (ix3 b (Cert.Spec.row (Cert.Spec.dstOf a1 e)) d) * a4 (ix1 e) else 0) := by
  rw [wrap_apply, msg_apply, wrap_apply, col0_apply, col1_apply]
  rfl

/-- The reference's aggregated neighbours are the specification's: each accumulating scatter adds, at node `n`, the
    messages of the edges whose landing word is `n`. -/
theorem nbr_eq (a0 : FVec Ideal S2x50000x64 .f32) (a1 : IVec S800000x2 32) (a4 : FVec Ideal S800000 .f32) :
    nbr a0 a1 a4 = Cert.Spec.nbr a0 a1 a4 := by
  funext i
  obtain ⟨b, n, d, rfl⟩ : ∃ (b : Fin 2) (n : Fin 50000) (d : Fin 64), i = ix3 b n d := ⟨i 0, i 1, i 2, eq_ix3 i⟩
  unfold nbr
  rw [scatter_at, scatter_at]
  exact congrArg₂ (fun s t : EReal => (zeros (F := Ideal) (ix3 b n d) + s) + t)
    (Finset.sum_congr rfl fun e _ => fwd_term a0 a1 a4 b n d e)
    (Finset.sum_congr rfl fun e _ => bwd_term a0 a1 a4 b n d e)

/-- The linear layer's dimension numbers: the feature axis of the neighbours against the second axis of the weight. -/
abbrev dd : DotDims S2x50000x64 S64x64 S2x50000x64 := dot_S2x50000x64_S64x64_S2x50000x64_2_1_01_0_n_n

theorem dd_lhs0 (i : S2x50000x64.Idx) (k : dd.contr.Idx) : (dd.lhsIdx i k 0).val = (i 0).val := by
  unfold DotDims.lhsIdx
  rw [dif_neg (show ¬(0 : Fin S2x50000x64.rank) ∈ dd.lhsBatch by decide),
    dif_pos (show (0 : Fin S2x50000x64.rank) ∈ dd.lhsNonContracting by decide)]
  rfl
theorem dd_lhs1 (i : S2x50000x64.Idx) (k : dd.contr.Idx) : (dd.lhsIdx i k 1).val = (i 1).val := by
  unfold DotDims.lhsIdx
  rw [dif_neg (show ¬(1 : Fin S2x50000x64.rank) ∈ dd.lhsBatch by decide),
    dif_pos (show (1 : Fin S2x50000x64.rank) ∈ dd.lhsNonContracting by decide)]
  rfl
theorem dd_lhs2 (i : S2x50000x64.Idx) (k : dd.contr.Idx) : (dd.lhsIdx i k 2).val = (k ⟨0, by decide⟩).val :=
  dd.lhsIdx_val_of_single rfl i k
theorem dd_rhs0 (i : S2x50000x64.Idx) (k : dd.contr.Idx) : (dd.rhsIdx i k 0).val = (i 2).val := by
  unfold DotDims.rhsIdx
  rw [dif_neg (show ¬(0 : Fin S64x64.rank) ∈ dd.rhsBatch by decide),
    dif_pos (show (0 : Fin S64x64.rank) ∈ dd.rhsNonContracting by decide)]
  rfl
theorem dd_rhs1 (i : S2x50000x64.Idx) (k : dd.contr.Idx) : (dd.rhsIdx i k 1).val = (k ⟨0, by decide⟩).val :=
  dd.rhsIdx_val_of_single rfl i k

/-- The linear layer at `(b, n, e)`: the sum over the feature `k` of the neighbours' entry `(b, n, k)` times the
    weight's entry `(e, k)`. -/
theorem dot_at (X : FVec Ideal S2x50000x64 .f32) (a5 : FVec Ideal S64x64 .f32) (b : Fin 2) (n : Fin 50000) (e : Fin 64) :
    Host.dotGeneral dd none X a5 (ix3 b n e) = ∑ k : Fin 64, X (ix3 b n k) * a5 (ix2 e k) := by
  simp only [Host.dotGeneral]
  rw [Ideal.dotGeneral_apply, ← Equiv.sum_comp (contrEquiv1 dd 64 rfl rfl).symm]
  refine Finset.sum_congr rfl fun k _ => ?_
  have hk := contrEquiv1_symm_val dd 64 rfl rfl k
  have el : dd.lhsIdx (ix3 b n e) ((contrEquiv1 dd 64 rfl rfl).symm k) = ix3 b n k := funext fun a => Fin.ext (by
    match a with
    | ⟨0, _⟩ => exact dd_lhs0 _ _
    | ⟨1, _⟩ => exact dd_lhs1 _ _
    | ⟨2, _⟩ => exact (dd_lhs2 _ _).trans hk)
  have er : dd.rhsIdx (ix3 b n e) ((contrEquiv1 dd 64 rfl rfl).symm k) = ix2 e k := funext fun a => Fin.ext (by
    match a with
    | ⟨0, _⟩ => exact dd_rhs0 _ _
    | ⟨1, _⟩ => exact (dd_rhs1 _ _).trans hk)
  rw [el, er]

/-- The reference's result is the specification's result of the specification's neighbours. -/
theorem out_eq (a0 : FVec Ideal S2x50000x64 .f32) (a1 : IVec S800000x2 32) (a2 a3 : FVec Ideal S2x50000x64 .f32)
    (a4 : FVec Ideal S800000 .f32) (a5 : FVec Ideal S64x64 .f32) :
    out a0 a1 a2 a3 a4 a5 = Cert.Spec.out (Cert.Spec.nbr a0 a1 a4) a2 a3 a5 := by
  funext i
  obtain ⟨b, n, e, rfl⟩ : ∃ (b : Fin 2) (n : Fin 50000) (e : Fin 64), i = ix3 b n e := ⟨i 0, i 1, i 2, eq_ix3 i⟩
  unfold out leaky
  rw [nbr_eq]
  generalize Cert.Spec.nbr a0 a1 a4 = X
  show Cert.Spec.lrelu ((a2 (ix3 b n e) + Host.dotGeneral dd none X a5 (ix3 b n e)) + a3 (ix3 b n e)) = _
  rw [dot_at]
  rfl

end Cert.ReferenceIdeal.RefValue

end
-- ==== Proof.KernelTerm.lean ====
/-
  The kernel program's host chain as named terms of its argument arrays: the two columns of the edge list laid end
  to end (destinations then sources for where a message lands, sources then destinations for where it is read), the
  gate vector laid twice, ONE accumulating scatter of all the gated messages, and the flattenings around the dense
  stage (the node axis `b · 50000 + n`, the weight transposed for the matrix unit).
-/
import proofs.«157130_j70669391888820_2_alg».proof.KernelIdeal

noncomputable section

namespace Cert.KernelIdeal.Term

open Idealize.ShloMosaic Cert.KernelIdeal Cert.KernelIdeal.Facts₀

variable {F : FTy → Type} [FloatOps F] [Facts]

/-- The first column of the edge list (the source endpoints), as a vector. -/
def col0 (a1 : IVec S800000x2 32) : IVec S800000 32 :=
  shapeCast S800000 (extractStridedSlice S800000x1 ![0, 0] a1 slices_S800000x2_S800000x1_0_0) shapeCasts_S800000x1_S800000

/-- The second column of the edge list (the destination endpoints), as a vector. -/
def col1 (a1 : IVec S800000x2 32) : IVec S800000 32 :=
  shapeCast S800000 (extractStridedSlice S800000x1 ![0, 1] a1 slices_S800000x2_S800000x1_0_1) shapeCasts_S800000x1_S800000

/-- Two vectors of node numbers laid end to end. -/
def cat (a b : IVec S800000 32) : IVec S1600000 32 :=
  concatenate S1600000 0 [⟨S800000, a⟩, ⟨S800000, b⟩] concatenates_S800000_S800000_S1600000_d0

/-- Two gate vectors laid end to end. -/
def catf (a b : FVec F S800000 .f32) : FVec F S1600000 .f32 :=
  concatenate S1600000 0 [⟨S800000, a⟩, ⟨S800000, b⟩] concatenates_S800000_S800000_S1600000_d0

/-- A vector of node numbers as a column of start indices: a negative entry has the node count added. -/
def wrap (x : IVec S1600000 32) : IVec S1600000x1 32 :=
  broadcastInDim S1600000x1 ![0] bcast_S1600000_S1600000x1_0
    (select (cmpi .slt x (broadcastInDim S1600000 ![] bcast_S_S1600000 (constantI S_ 32 0#32)))
      (addi x (broadcastInDim S1600000 ![] bcast_S_S1600000 (constantI S_ 32 50000#32))) x)

/-- The gated messages: the rows of `a0` the start indices name, each times its gate. -/
def msg (a0 : FVec F S2x50000x64 .f32) (src : IVec S1600000x1 32) (g2 : FVec F S1600000 .f32) : FVec F S2x1600000x64 .f32 :=
  mulf (Host.gather gather_S2x50000x64_S1600000x1_S2x1600000x64_02_1_n_n_1_1_2164 a0 src)
    (broadcastInDim S2x1600000x64 ![0, 1, 2] bcast_S1x1600000x1_S2x1600000x64_0_1_2
      (shapeCast S1x1600000x1 g2 shapeCasts_S1600000_S1x1600000x1))

/-- The zero array the accumulation starts from. -/
def zeros : FVec F S2x50000x64 .f32 :=
  broadcastInDim S2x50000x64 ![] bcast_S_S2x50000x64 (constant S_ .f32 0x00000000#32)

/-- The aggregated neighbours: every gated message added at its landing node in ONE accumulating scatter. -/
def nbr (a0 : FVec F S2x50000x64 .f32) (a1 : IVec S800000x2 32) (a4 : FVec F S800000 .f32) : FVec F S2x50000x64 .f32 :=
  Host.scatterAdd scatter_S2x50000x64_S1600000x1_S2x1600000x64_02_1_1_1 zeros (wrap (cat (col1 a1) (col0 a1)))
    (msg a0 (wrap (cat (col0 a1) (col1 a1))) (catf a4 a4))

/-- An array over (batch, node, feature) with batch and node flattened into one row axis. -/
def flat (a : FVec F S2x50000x64 .f32) : FVec F S100000x64 .f32 :=
  shapeCast S100000x64 a shapeCasts_S2x50000x64_S100000x64

/-- The aggregated neighbours, flattened: the dense stage's first operand. -/
def nbr2 (a0 : FVec F S2x50000x64 .f32) (a1 : IVec S800000x2 32) (a4 : FVec F S800000 .f32) : FVec F S100000x64 .f32 :=
  flat (nbr a0 a1 a4)

/-- The weight as the matrix unit reads it: transposed, in the narrow format. -/
def wt (a5 : FVec F S64x64 .f32) : FVec F S64x64 .bf16 :=
  truncf .bf16 (transpose S64x64 [1, 0] a5 transposes_S64x64_S64x64_1_0) bitsLt_bf16_f32

/-- A flattened array back over (batch, node, feature). -/
def unflat (y : FVec F S100000x64 .f32) : FVec F S2x50000x64 .f32 :=
  shapeCast S2x50000x64 y shapeCasts_S100000x64_S2x50000x64

end Cert.KernelIdeal.Term

end
-- ==== Proof.KernelEntry.lean ====
/-
  What the region finds in the four arrays it reads (the arrays of its windows 0 to 3).

  Before the region the program lays the edge list's two columns end to end (both orders), gathers the gated
  messages, adds them all into a zero array in one accumulating scatter, and flattens the batch and node axes of the
  result and of the node and edge features into one row axis; the weight it transposes and narrows.  Read back
  through those host operations, the four arrays are the named terms of the argument arrays.
-/
import proofs.«157130_j70669391888820_2_alg».proof.Proof.Gen.KernelIdeal.Frame
import proofs.«157130_j70669391888820_2_alg».proof.Proof.KernelTerm
import Idealize.ShloMosaic.PureOps.Ideal

noncomputable section

namespace Cert.KernelIdeal.HandRun

open Idealize.ShloMosaic Idealize.ShloMosaic.TcCoe Idealize.SL.Sem Cert.KernelIdeal Cert.KernelIdeal.Gen

variable (m : (ℓ : Loc nD τ sig) → Buf (Elt Ideal) ℓ)

/-- The node features, flattened. -/
theorem entry_node (c : Dev nD) :
    (Gen.V m c (Pipeline.arrRef spec0 (1 : Fin cfg0.W)) : S100000x64.Idx → EReal)
      = Term.flat (F := Ideal) (m ((c.tc : Thread nD τ).loc main_arg2)) := by
  show StableHlo.after hostOps0 (fun b => m (c, b)) (Proc.devRef .tc main_v28) = _
  after_results
  rfl

/-- The edge features, flattened. -/
theorem entry_edge (c : Dev nD) :
    (Gen.V m c (Pipeline.arrRef spec0 (2 : Fin cfg0.W)) : S100000x64.Idx → EReal)
      = Term.flat (F := Ideal) (m ((c.tc : Thread nD τ).loc main_arg3)) := by
  show StableHlo.after hostOps0 (fun b => m (c, b)) (Proc.devRef .tc main_v29) = _
  after_results
  rfl

/-- The weight, transposed and narrowed. -/
theorem entry_weight (c : Dev nD) :
    (Gen.V m c (Pipeline.arrRef spec0 (3 : Fin cfg0.W)) : S64x64.Idx → EReal)
      = Term.wt (F := Ideal) (m ((c.tc : Thread nD τ).loc main_arg5)) := by
  show StableHlo.after hostOps0 (fun b => m (c, b)) (Proc.devRef .tc main_v26) = _
  after_results
  rfl

attribute [local irreducible] Host.gather Host.scatterAdd concatenate in
/-- The aggregated neighbours, flattened: one accumulating scatter of all the gated messages. -/
theorem entry_nbr (c : Dev nD) :
    (Gen.V m c (Pipeline.arrRef spec0 (0 : Fin cfg0.W)) : S100000x64.Idx → EReal)
      = Term.nbr2 (F := Ideal) (m ((c.tc : Thread nD τ).loc main_arg0)) (m ((c.tc : Thread nD τ).loc main_arg1))
          (m ((c.tc : Thread nD τ).loc main_arg4)) := by
  show StableHlo.after hostOps0 (fun b => m (c, b)) (Proc.devRef .tc main_v27) = _
  after_results_simp
  unfold Term.nbr2 Term.flat Term.nbr Term.msg Term.wrap Term.cat Term.catf Term.col0 Term.col1 Term.zeros
  rfl

end Cert.KernelIdeal.HandRun

end
-- ==== Proof.KernelPayload.lean ====
/-
  The body's arithmetic at one entry of a block.

  A grid point holds a block of 5000 rows by 64 features of each of the three row-indexed operands and the whole
  64 by 64 weight.  At row `p` and feature `q` of the block the body adds to the node entry the product of row `p`
  of the aggregated neighbours with column `q` of the weight (a sum over the 64 contraction positions, accumulated
  from zero, the change of format being the identity over the extended reals), adds the edge entry, and applies the
  leaky rectifier: exactly one entry of the dense stage on a block.
-/
import proofs.«157130_j70669391888820_2_alg».proof.Proof.Gen.KernelIdeal.Skeleton
import proofs.«157130_j70669391888820_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.HandRun

open Idealize.ShloMosaic Idealize.ShloMosaic.ValueIdx Cert.KernelIdeal Cert.KernelIdeal.Facts₀

/-- The block product's dimension numbers: rows by contraction times contraction by columns. -/
abbrev mm : DotDims S5000x64 S64x64 S5000x64 := dot_S5000x64_S64x64_S5000x64_1_0_0_1_n_n

/-- The left operand is read at the output's row … -/
theorem mm_lhs_row (i : S5000x64.Idx) (k : mm.contr.Idx) : (mm.lhsIdx i k 0).val = (i 0).val := by
  unfold DotDims.lhsIdx
  rw [dif_neg (show ¬(0 : Fin S5000x64.rank) ∈ mm.lhsBatch by decide),
    dif_pos (show (0 : Fin S5000x64.rank) ∈ mm.lhsNonContracting by decide)]
  rfl
/-- … and at the contraction position; -/
theorem mm_lhs_col (i : S5000x64.Idx) (k : mm.contr.Idx) : (mm.lhsIdx i k 1).val = (k ⟨0, by decide⟩).val :=
  mm.lhsIdx_val_of_single rfl i k
/-- the right operand at the contraction position … -/
theorem mm_rhs_row (i : S5000x64.Idx) (k : mm.contr.Idx) : (mm.rhsIdx i k 0).val = (k ⟨0, by decide⟩).val :=
  mm.rhsIdx_val_of_single rfl i k
/-- … and at the output's column. -/
theorem mm_rhs_col (i : S5000x64.Idx) (k : mm.contr.Idx) : (mm.rhsIdx i k 1).val = (i 1).val := by
  unfold DotDims.rhsIdx
  rw [dif_neg (show ¬(1 : Fin S64x64.rank) ∈ mm.rhsBatch by decide),
    dif_pos (show (1 : Fin S64x64.rank) ∈ mm.rhsNonContracting by decide)]
  rfl

/-- The block product accumulated from zero, at row `p` and column `q`: the sum over the contraction position `k` of
    the left operand at `(p, k)` times the right operand at `(k, q)`. -/
theorem matmul_at (a : FVec Ideal S5000x64 .bf16) (b : FVec Ideal S64x64 .bf16) (p : Fin 5000) (q : Fin 64) :
    matmul mm none a b (constant S5000x64 .f32 0x00000000#32) (ix2 p q) = ∑ k : Fin 64, a (ix2 p k) * b (ix2 k q) := by
  simp only [matmul]
  rw [Ideal.matmul_constant_zero_apply, ← Equiv.sum_comp (contrEquiv1 mm 64 rfl rfl).symm]
  refine Finset.sum_congr rfl fun k _ => ?_
  have hk := contrEquiv1_symm_val mm 64 rfl rfl k
  have el : mm.lhsIdx (ix2 p q) ((contrEquiv1 mm 64 rfl rfl).symm k) = ix2 p k := funext fun a => Fin.ext (by
    match a with
    | ⟨0, _⟩ => exact mm_lhs_row _ _
    | ⟨1, _⟩ => exact (mm_lhs_col _ _).trans hk)
  have er : mm.rhsIdx (ix2 p q) ((contrEquiv1 mm 64 rfl rfl).symm k) = ix2 k q := funext fun a => Fin.ext (by
    match a with
    | ⟨0, _⟩ => exact (mm_rhs_row _ _).trans hk
    | ⟨1, _⟩ => exact mm_rhs_col _ _)
  rw [el, er]

/-- The printed rectifier — compare with the zero word, keep the value or take the slope word times it — is, entry by
    entry, the rectifier of the specification. -/
theorem lrelu_at (s : FVec Ideal S5000x64 .f32) (j : S5000x64.Idx) :
    select (cmpf .oge s (broadcast S5000x64 (Scalar.ofBits (F := Ideal) .f32 0x00000000#32))) s
        (mulf (broadcast S5000x64 (Scalar.ofBits (F := Ideal) .f32 0x3C23D70A#32)) s) j
      = Cert.Spec.lrelu (s j) := rfl

/-- One entry of what the body stores: the leaky rectifier of the node entry plus the row-by-column product plus the
    edge entry. -/
theorem pay_at (x0 x1 x2 : Vec Ideal S5000x64 .f32) (x3 : Vec Ideal S64x64 .bf16) (p : Fin 5000) (q : Fin 64) :
    Gen.k0_pay1 x0 x3 x1 x2 (ix2 p q)
      = Cert.Spec.lrelu ((x1 (ix2 p q) + ∑ k : Fin 64, x0 (ix2 p k) * x3 (ix2 k q)) + x2 (ix2 p q)) := by
  unfold Gen.k0_pay1
  refine (lrelu_at _ _).trans (congrArg Cert.Spec.lrelu ?_)
  rw [shapeCast_self, shapeCast_self, shapeCast_self, shapeCast_self]
  exact congrArg (fun z : EReal => (x1 (ix2 p q) + z) + x2 (ix2 p q))
    (matmul_at (truncf .bf16 x0 Gen.bitsLt_bf16_f32) x3 p q)

end Cert.KernelIdeal.HandRun

end
-- ==== Proof.KernelBlocks.lean ====
/-
  From blocks to the whole array.

  The grid has 20 points; point `t` reads rows `5000 t … 5000 t + 4999` of the three row-indexed arrays and the whole
  weight, and writes the same rows of the result.  An entry the body stores at row `p` of its block is therefore the
  dense stage's entry at row `5000 t + p` of the whole arrays; every row `r` lies in the block of point `r / 5000`;
  so after the last point the result array is the dense stage of the four arrays the region found.
-/
import proofs.«157130_j70669391888820_2_alg».proof.Proof.Gen.KernelIdeal.Frame
import proofs.«157130_j70669391888820_2_alg».proof.Proof.KernelPayload
import Idealize.ShloMosaic.Lib.Pipeline.Value

noncomputable section

open scoped BigOperators

namespace Cert.KernelIdeal.HandRun

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ)

/-- The zero offsets of a whole-buffer access, however they are spelt. -/
theorem zero_off : (![0, 0] : Fin 2 → Nat) = fun _ => 0 := funext fun a => by fin_cases a <;> rfl

/-- The printed index maps over the 20 points: the three row-indexed inputs and the output sit at block `(t, 0)`, the
    weight at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `p` of point `t`'s block is row `5000 t + p` of the array. -/
def row (t : Fin cfg0.N) (p : Fin 5000) : Fin 100000 := ⟨t.val * 5000 + p.val, by
  have hN : cfg0.N = 20 := N_0
  have := t.isLt; have := p.isLt; omega⟩

/-- Window 0's block at point `t` holds rows `5000 t … 5000 t + 4999` of its array, all 64 features. -/
theorem emb_in0 (t : Fin cfg0.N) (p : Fin 5000) (k : Fin 64) :
    ((cfg0.win 0).blk t).view.emb (ix2 p k) = (ix2 (row t p) k : S100000x64.Idx) := by
  obtain ⟨e0, e1, -⟩ := idx_facts t
  funext a; apply Fin.ext
  match a with
  | ⟨0, _⟩ => show win0_0.index t (0 : Fin 2) * 5000 + 1 * p.val = t.val * 5000 + p.val; rw [e0]; omega
  | ⟨1, _⟩ => show win0_0.index t (1 : Fin 2) * 64 + 1 * k.val = k.val; rw [e1]; omega

/-- Window 1's block at point `t` holds rows `5000 t … 5000 t + 4999` of its array, all 64 features. -/
theorem emb_in1 (t : Fin cfg0.N) (p : Fin 5000) (k : Fin 64) :
    ((cfg0.win 1).blk t).view.emb (ix2 p k) = (ix2 (row t p) k : S100000x64.Idx) := by
  obtain ⟨-, -, e0, e1, -⟩ := idx_facts t
  funext a; apply Fin.ext
  match a with
  | ⟨0, _⟩ => show win0_1.index t (0 : Fin 2) * 5000 + 1 * p.val = t.val * 5000 + p.val; rw [e0]; omega
  | ⟨1, _⟩ => show win0_1.index t (1 : Fin 2) * 64 + 1 * k.val = k.val; rw [e1]; omega

/-- Window 2's block at point `t` holds rows `5000 t … 5000 t + 4999` of its array, all 64 features. -/
theorem emb_in2 (t : Fin cfg0.N) (p : Fin 5000) (k : Fin 64) :
    ((cfg0.win 2).blk t).view.emb (ix2 p k) = (ix2 (row t p) k : S100000x64.Idx) := by
  obtain ⟨-, -, -, -, e0, e1, -⟩ := idx_facts t
  funext a; apply Fin.ext
  match a with
  | ⟨0, _⟩ => show win0_2.index t (0 : Fin 2) * 5000 + 1 * p.val = t.val * 5000 + p.val; rw [e0]; omega
  | ⟨1, _⟩ => show win0_2.index t (1 : Fin 2) * 64 + 1 * k.val = k.val; rw [e1]; omega

/-- Window 4's block at point `t` holds rows `5000 t … 5000 t + 4999` of its array, all 64 features. -/
theorem emb_in4 (t : Fin cfg0.N) (p : Fin 5000) (k : Fin 64) :
    ((cfg0.win 4).blk t).view.emb (ix2 p k) = (ix2 (row t p) k : S100000x64.Idx) := by
  obtain ⟨-, -, -, -, -, -, -, -, e0, e1⟩ := idx_facts t
  funext a; apply Fin.ext
  match a with
  | ⟨0, _⟩ => show win0_4.index t (0 : Fin 2) * 5000 + 1 * p.val = t.val * 5000 + p.val; rw [e0]; omega
  | ⟨1, _⟩ => show win0_4.index t (1 : Fin 2) * 64 + 1 * k.val = k.val; rw [e1]; omega

/-- The weight's block at every point is the whole weight. -/
theorem emb_in3 (t : Fin cfg0.N) (k q : Fin 64) :
    ((cfg0.win 3).blk t).view.emb (ix2 k q) = (ix2 k q : S64x64.Idx) := by
  obtain ⟨-, -, -, -, -, -, e0, e1, -⟩ := idx_facts t
  funext a; apply Fin.ext
  match a with
  | ⟨0, _⟩ => show win0_3.index t (0 : Fin 2) * 64 + 1 * k.val = k.val; rw [e0]; omega
  | ⟨1, _⟩ => show win0_3.index t (1 : Fin 2) * 64 + 1 * q.val = q.val; rw [e1]; omega

/-- Read through window 0's block at point `t`, a row-indexed array gives its rows from `5000 t` on. -/
theorem read_in0 (A : S100000x64.Idx → EReal) (t : Fin cfg0.N) (p : Fin 5000) (k : Fin 64) :
    ((cfg0.win 0).blk t).view.read (Elt Ideal) A (ix2 p k) = A (ix2 (row t p) k) := by
  rw [View.read_apply, emb_in0 t p k]
  rfl

/-- Read through window 1's block at point `t`, a row-indexed array gives its rows from `5000 t` on. -/
theorem read_in1 (A : S100000x64.Idx → EReal) (t : Fin cfg0.N) (p : Fin 5000) (k : Fin 64) :
    ((cfg0.win 1).blk t).view.read (Elt Ideal) A (ix2 p k) = A (ix2 (row t p) k) := by
  rw [View.read_apply, emb_in1 t p k]
  rfl

/-- Read through window 2's block at point `t`, a row-indexed array gives its rows from `5000 t` on. -/
theorem read_in2 (A : S100000x64.Idx → EReal) (t : Fin cfg0.N) (p : Fin 5000) (k : Fin 64) :
    ((cfg0.win 2).blk t).view.read (Elt Ideal) A (ix2 p k) = A (ix2 (row t p) k) := by
  rw [View.read_apply, emb_in2 t p k]
  rfl

/-- Read through window 4's block at point `t`, the result array gives its rows from `5000 t` on. -/
theorem read_in4 (A : S100000x64.Idx → EReal) (t : Fin cfg0.N) (p : Fin 5000) (k : Fin 64) :
    ((cfg0.win 4).blk t).view.read (Elt Ideal) A (ix2 p k) = A (ix2 (row t p) k) := by
  rw [View.read_apply, emb_in4 t p k]
  rfl

/-- Read through the weight's block at any point, the weight is itself. -/
theorem read_in3 (A : S64x64.Idx → EReal) (t : Fin cfg0.N) (k q : Fin 64) :
    ((cfg0.win 3).blk t).view.read (Elt Ideal) A (ix2 k q) = A (ix2 k q) := by
  rw [View.read_apply, emb_in3 t k q]
  rfl

/-- An entry of the aggregated neighbours' block at point `t` is the array's entry at row `5000 t + p`. -/
theorem iblk0_at (c : Dev nD) (t : Fin cfg0.N) (p : Fin 5000) (k : Fin 64) :
    (iblk m c 0 t : Vec Ideal S5000x64 .f32) (ix2 p k)
      = ((V m c (Pipeline.arrRef spec0 (0 : Fin cfg0.W))) : S100000x64.Idx → EReal) (ix2 (row t p) k) := by
  unfold iblk
  exact read_in0 _ t p k

/-- An entry of the node features' block at point `t` is the array's entry at row `5000 t + p`. -/
theorem iblk1_at (c : Dev nD) (t : Fin cfg0.N) (p : Fin 5000) (k : Fin 64) :
    (iblk m c 1 t : Vec Ideal S5000x64 .f32) (ix2 p k)
      = ((V m c (Pipeline.arrRef spec0 (1 : Fin cfg0.W))) : S100000x64.Idx → EReal) (ix2 (row t p) k) := by
  unfold iblk
  exact read_in1 _ t p k

/-- An entry of the edge features' block at point `t` is the array's entry at row `5000 t + p`. -/
theorem iblk2_at (c : Dev nD) (t : Fin cfg0.N) (p : Fin 5000) (k : Fin 64) :
    (iblk m c 2 t : Vec Ideal S5000x64 .f32) (ix2 p k)
      = ((V m c (Pipeline.arrRef spec0 (2 : Fin cfg0.W))) : S100000x64.Idx → EReal) (ix2 (row t p) k) := by
  unfold iblk
  exact read_in2 _ t p k

/-- An entry of the weight's block at any point is the weight's entry. -/
theorem iblk3_at (c : Dev nD) (t : Fin cfg0.N) (k q : Fin 64) :
    (iblk m c 3 t : Vec Ideal S64x64 .bf16) (ix2 k q) = ((V m c (Pipeline.arrRef spec0 (3 : Fin cfg0.W))) : S64x64.Idx → EReal) (ix2 k q) := by
  unfold iblk
  exact read_in3 _ t k q

/-- The body's entry at row `p` of point `t`'s blocks is the dense stage's entry at row `5000 t + p` of any arrays
    the blocks are rows of. -/
theorem pay_dense (A0 A1 A2 : S100000x64.Idx → EReal) (A3 : S64x64.Idx → EReal)
    (x0 x1 x2 : Vec Ideal S5000x64 .f32) (x3 : Vec Ideal S64x64 .bf16) (t : Fin cfg0.N) (p : Fin 5000) (q : Fin 64)
    (h0 : ∀ k : Fin 64, x0 (ix2 p k) = A0 (ix2 (row t p) k)) (h1 : x1 (ix2 p q) = A1 (ix2 (row t p) q))
    (h2 : x2 (ix2 p q) = A2 (ix2 (row t p) q)) (h3 : ∀ k : Fin 64, x3 (ix2 k q) = A3 (ix2 k q)) :
    Gen.k0_pay1 x0 x3 x1 x2 (ix2 p q) = Cert.Spec.dense A0 A1 A2 A3 (ix2 (row t p) q) := by
  rw [pay_at, h1, h2]
  simp only [h0, h3]
  rfl

/-- WHAT POINT `t` WRITES BACK is block `t` of the dense stage of the four arrays as the region finds them. -/
theorem flushed_eq (c : Dev nD) (t : Fin cfg0.N) :
    (dats m 0 c).flushed 4 t = ((cfg0.win 4).blk t).view.read (Elt Ideal)
      (Cert.Spec.dense (V m c (Pipeline.arrRef spec0 (0 : Fin cfg0.W))) (V m c (Pipeline.arrRef spec0 (1 : Fin cfg0.W))) (V m c (Pipeline.arrRef spec0 (2 : Fin cfg0.W))) (V m c (Pipeline.arrRef spec0 (3 : Fin cfg0.W)))) := by
  show (cfg0.win 4).cut (grid0.coords t) ((dats m 0 c).after 4 t) = _
  rw [after0_4]
  unfold out0_4
  rw [View.canon_unit_zero zero_off]
  simp only [View.ld_unit_zero (S := S5000x64) zero_off, View.ld_unit_zero (S := S64x64) zero_off]
  funext j
  obtain ⟨p, q, rfl⟩ : ∃ (p : Fin 5000) (q : Fin 64), j = ix2 p q := ⟨j 0, j 1, eq_ix2 j⟩
  rw [read_in4 _ t p q]
  exact pay_dense _ _ _ _ _ _ _ _ t p q (iblk0_at m c t p) (iblk1_at m c t p q) (iblk2_at m c t p q)
    (fun k => iblk3_at m c t k q)

/-- A row of the result array is in point `t`'s block iff it lies between `5000 t` and `5000 t + 4999` (and its feature
    among the 64). -/
theorem mem_blk (t : Fin cfg0.N) (i : S100000x64.Idx) :
    i ∈ ((cfg0.win 4).blk t).view.set ↔ ∀ a : Fin 2, win0_4.index t a * S5000x64.size a ≤ (i a).val
      ∧ (i a).val < win0_4.index t a * S5000x64.size a + S5000x64.size a := by
  show i ∈ ((View.whole main_v30).slice (win0_4.rect t)).set ↔ _
  rw [View.set_slice_whole, Rect.mem_set_unit]
  exact Iff.rfl

/-- Every entry of the result array is written back by some point: row `r` by point `r / 5000`. -/
theorem cover (i : S100000x64.Idx) :
    ∃ t : Fin cfg0.N, (cfg0.win 4).flush t = true ∧ i ∈ ((cfg0.win 4).blk t).view.set := by
  have hN : cfg0.N = 20 := N_0
  have h0 : (i 0).val < 100000 := (i 0).isLt
  have h1 : (i 1).val < 64 := (i 1).isLt
  obtain ⟨t, ht⟩ : ∃ t : Fin cfg0.N, t.val = (i 0).val / 5000 := ⟨⟨(i 0).val / 5000, by omega⟩, rfl⟩
  refine ⟨t, flush0_4 t, ?_⟩
  rw [mem_blk]
  obtain ⟨-, -, -, -, -, -, -, -, e0, e1⟩ := idx_facts t
  intro a
  match a with
  | ⟨0, _⟩ =>
    show win0_4.index t (0 : Fin 2) * 5000 ≤ (i 0).val ∧ (i 0).val < win0_4.index t (0 : Fin 2) * 5000 + 5000
    rw [e0]; omega
  | ⟨1, _⟩ =>
    show win0_4.index t (1 : Fin 2) * 64 ≤ (i 1).val ∧ (i 1).val < win0_4.index t (1 : Fin 2) * 64 + 64
    rw [e1]; omega

/-- THE RESULT ARRAY after the last point is the dense stage of the four arrays the region found. -/
theorem final (c : Dev nD) :
    (dats m 0 c).arrAt 4 cfg0.N
      = Cert.Spec.dense (V m c (Pipeline.arrRef spec0 (0 : Fin cfg0.W))) (V m c (Pipeline.arrRef spec0 (1 : Fin cfg0.W))) (V m c (Pipeline.arrRef spec0 (2 : Fin cfg0.W))) (V m c (Pipeline.arrRef spec0 (3 : Fin cfg0.W))) :=
  (dats m 0 c).arrAt_eq_of_cover 4 _ (fun t _ => flushed_eq m c t) cover

end Cert.KernelIdeal.HandRun

end
-- ==== Proof.KernelRun.lean ====
/-
  The kernel program's run, read back as a value.

  After the region the program only unflattens the result array (one row axis back into batch and node).  The
  result array is the dense stage of the four arrays the region found; those are the aggregated neighbours (one
  accumulating scatter of the gated messages), the node and the edge features, all flattened, and the weight
  transposed; no argument array is written.  So the program ends with its result at the unflattened dense stage of
  those terms of its arguments, and with its arguments as launched.
-/
import proofs.«157130_j70669391888820_2_alg».proof.Proof.Gen.KernelIdeal.Frame
import proofs.«157130_j70669391888820_2_alg».proof.Proof.KernelTerm
import proofs.«157130_j70669391888820_2_alg».proof.Proof.KernelEntry
import proofs.«157130_j70669391888820_2_alg».proof.Proof.KernelBlocks

noncomputable section

namespace Cert.KernelIdeal.HandRun

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- What the region leaves in its result array, read where the host operation after it reads: the dense stage of the
    four arrays the region found. -/
theorem region_out (c : Dev nD) :
    Pipeline.withArrays spec0 c (V0 m c) (fun w => (dats m 0 c).arrAt w cfg0.N) (Proc.devRef .tc main_v30)
      = Cert.Spec.dense (V m c (Pipeline.arrRef spec0 (0 : Fin cfg0.W))) (V m c (Pipeline.arrRef spec0 (1 : Fin cfg0.W))) (V m c (Pipeline.arrRef spec0 (2 : Fin cfg0.W))) (V m c (Pipeline.arrRef spec0 (3 : Fin cfg0.W))) :=
  (Pipeline.withArrays_arr spec0 launch0.win.arr_inj c _ _ 4).trans (final m c)

/-- The program's result: the region's result array, unflattened. -/
theorem tail_eq (c : Dev nD) :
    Pipeline.afterTail₀ cfgs (dats m) 0 (V0 m) [hostOps1] c main_v31
      = Term.unflat (F := Ideal) (Cert.Spec.dense (V m c (Pipeline.arrRef spec0 (0 : Fin cfg0.W))) (V m c (Pipeline.arrRef spec0 (1 : Fin cfg0.W))) (V m c (Pipeline.arrRef spec0 (2 : Fin cfg0.W))) (V m c (Pipeline.arrRef spec0 (3 : Fin cfg0.W)))) := by
  unfold Pipeline.afterTail₀
  show StableHlo.after hostOps1 _ (Proc.devRef .tc main_v31) = _
  after_results
  exact congrArg (Term.unflat (F := Ideal)) (region_out m c)

/-- The same with the four arrays read back through the host operations before the region. -/
theorem result_eq (c : Dev nD) :
    Term.unflat (F := Ideal) (Cert.Spec.dense (V m c (Pipeline.arrRef spec0 (0 : Fin cfg0.W))) (V m c (Pipeline.arrRef spec0 (1 : Fin cfg0.W))) (V m c (Pipeline.arrRef spec0 (2 : Fin cfg0.W))) (V m c (Pipeline.arrRef spec0 (3 : Fin cfg0.W))))
      = Cert.KernelIdeal.Term.unflat (F := Ideal) (Cert.Spec.dense
            (Cert.KernelIdeal.Term.nbr2 (F := Ideal) (m ((c.tc : Thread nD τ).loc main_arg0)) (m ((c.tc : Thread nD τ).loc main_arg1)) (m ((c.tc : Thread nD τ).loc main_arg4)))
            (Cert.KernelIdeal.Term.flat (F := Ideal) (m ((c.tc : Thread nD τ).loc main_arg2)))
            (Cert.KernelIdeal.Term.flat (F := Ideal) (m ((c.tc : Thread nD τ).loc main_arg3)))
            (Cert.KernelIdeal.Term.wt (F := Ideal) (m ((c.tc : Thread nD τ).loc main_arg5)))) := by
  rw [entry_nbr m c, entry_node m c, entry_edge m c, entry_weight m c]

/-- THE RUN: every weakly fair execution of the program from `m` terminates without a fault, with the result at the
    unflattened dense stage of the aggregated neighbours, the node features, the edge features and the transposed
    weight, and with every argument array as launched. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v31)
        = Cert.KernelIdeal.Term.unflat (F := Ideal) (Cert.Spec.dense
            (Cert.KernelIdeal.Term.nbr2 (F := Ideal) (m ((c.tc : Thread nD τ).loc main_arg0)) (m ((c.tc : Thread nD τ).loc main_arg1)) (m ((c.tc : Thread nD τ).loc main_arg4)))
            (Cert.KernelIdeal.Term.flat (F := Ideal) (m ((c.tc : Thread nD τ).loc main_arg2)))
            (Cert.KernelIdeal.Term.flat (F := Ideal) (m ((c.tc : Thread nD τ).loc main_arg3)))
            (Cert.KernelIdeal.Term.wt (F := Ideal) (m ((c.tc : Thread nD τ).loc main_arg5))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).2 main_v31 (Pipeline.mem_restRefs_of main_v31 (by decide) (by decide))).trans
        ((tail_eq m c).trans (result_eq m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (Gen.run_main m ρ)

end Cert.KernelIdeal.HandRun

end
-- ==== Proof.KernelNbrAt.lean ====
/-
  The pieces of the kernel program's aggregation, read at an index: the columns of the edge list, two vectors laid
  end to end (first half the first vector, second half the second), the column of start indices, and a gated
  message.
-/
import proofs.«157130_j70669391888820_2_alg».proof.Proof.Gen.KernelIdeal
import proofs.«157130_j70669391888820_2_alg».proof.Proof.KernelTerm
import proofs.«157130_j70669391888820_2_alg».proof.Proof.Spec
import proofs.«157130_j70669391888820_2_alg».proof.Proof.Nbr
import proofs.«157130_j70669391888820_2_alg».proof.Proof.LibRowScatter
import Idealize.ShloMosaic.Lib.Pipeline.Value
import Idealize.ShloMosaic.PureOps.Ideal.Laws

noncomputable section

open scoped BigOperators

namespace Cert.KernelIdeal.KernelNbr

open Idealize.ShloMosaic Idealize.ShloMosaic.ValueIdx Cert.KernelIdeal Cert.KernelIdeal.Gen Cert.KernelIdeal.Facts₀
open Cert.KernelIdeal.Term Cert.LibRows

/-- Entry `e` of the first column is the edge list's entry `(e, 0)`. -/
theorem col0_apply (a1 : IVec S800000x2 32) (e : Fin 800000) : col0 a1 (ix1 e) = a1 (ix2 e (0 : Fin 2)) := by
  unfold col0
  refine (shapeCast_apply _ _ (ix1 e) (ix2 e (0 : Fin 1)) ?_).trans ?_
  · rw [Shape.rowMajor_val_two, Shape.rowMajor_val_one]; show e.val * 1 + 0 = e.val; omega
  · refine extractStridedSlice_apply _ _ _ _ (ix2 e (0 : Fin 2)) ?_
    intro a
    match a with
    | ⟨0, _⟩ => show e.val = 0 + e.val; omega
    | ⟨1, _⟩ => rfl

/-- Entry `e` of the second column is the edge list's entry `(e, 1)`. -/
theorem col1_apply (a1 : IVec S800000x2 32) (e : Fin 800000) : col1 a1 (ix1 e) = a1 (ix2 e (1 : Fin 2)) := by
  unfold col1
  refine (shapeCast_apply _ _ (ix1 e) (ix2 e (0 : Fin 1)) ?_).trans ?_
  · rw [Shape.rowMajor_val_two, Shape.rowMajor_val_one]; show e.val * 1 + 0 = e.val; omega
  · refine extractStridedSlice_apply _ _ _ _ (ix2 e (1 : Fin 2)) ?_
    intro a
    match a with
    | ⟨0, _⟩ => show e.val = 0 + e.val; omega
    | ⟨1, _⟩ => rfl

/-- The first half of two vectors laid end to end is the first vector. -/
theorem cat_lo (a b : IVec S800000 32) (e : Fin 800000) (h : e.val < 1600000) :
    cat a b (ix1 (⟨e.val, h⟩ : Fin 1600000)) = a (ix1 e) := by
  unfold cat
  refine concatenate_pair_apply_left (t := S1600000) (s₁ := S800000) (s₂ := S800000) 0 a b
    Facts₀.concatenates_S800000_S800000_S1600000_d0 (ix1 (⟨e.val, h⟩ : Fin 1600000)) rfl (ix1 e) ?_
  intro c
  match c with
  | ⟨0, _⟩ => rfl

/-- The second half of two vectors laid end to end is the second vector. -/
theorem cat_hi (a b : IVec S800000 32) (e : Fin 800000) (h : 800000 + e.val < 1600000) :
    cat a b (ix1 (⟨800000 + e.val, h⟩ : Fin 1600000)) = b (ix1 e) := by
  unfold cat
  refine concatenate_pair_apply_right (t := S1600000) (s₁ := S800000) (s₂ := S800000) 0 a b
    Facts₀.concatenates_S800000_S800000_S1600000_d0 (ix1 (⟨800000 + e.val, h⟩ : Fin 1600000)) rfl rfl (ix1 e) ?_ ?_
  · intro c hc
    match c with
    | ⟨0, _⟩ => exact absurd rfl hc
  · show e.val + 800000 = 800000 + e.val; omega

/-- The same two facts for the gate vector laid twice. -/
theorem catf_lo (a b : FVec Ideal S800000 .f32) (e : Fin 800000) (h : e.val < 1600000) :
    catf a b (ix1 (⟨e.val, h⟩ : Fin 1600000)) = a (ix1 e) := by
  unfold catf
  refine concatenate_pair_apply_left (t := S1600000) (s₁ := S800000) (s₂ := S800000) 0 a b
    Facts₀.concatenates_S800000_S800000_S1600000_d0 (ix1 (⟨e.val, h⟩ : Fin 1600000)) rfl (ix1 e) ?_
  intro c
  match c with
  | ⟨0, _⟩ => rfl

theorem catf_hi (a b : FVec Ideal S800000 .f32) (e : Fin 800000) (h : 800000 + e.val < 1600000) :
    catf a b (ix1 (⟨800000 + e.val, h⟩ : Fin 1600000)) = b (ix1 e) := by
  unfold catf
  refine concatenate_pair_apply_right (t := S1600000) (s₁ := S800000) (s₂ := S800000) 0 a b
    Facts₀.concatenates_S800000_S800000_S1600000_d0 (ix1 (⟨800000 + e.val, h⟩ : Fin 1600000)) rfl rfl (ix1 e) ?_ ?_
  · intro c hc
    match c with
    | ⟨0, _⟩ => exact absurd rfl hc
  · show e.val + 800000 = 800000 + e.val; omega

/-- Row `e` of the column of start indices is the wrapped word of entry `e`. -/
theorem wrap_apply (x : IVec S1600000 32) (e : Fin 1600000) : wrap x (ix2 e (0 : Fin 1)) = Cert.Spec.wrapWord (x (ix1 e)) := by
  unfold wrap
  refine (broadcastInDim_apply _ _ _ (ix2 e (0 : Fin 1)) (ix1 e) ?_).trans ?_
  · intro a
    match a with
    | ⟨0, _⟩ => rfl
  · rfl

/-- A gated message at `(b, e, d)`: the embedding row the start index names, times gate `e`. -/
theorem msg_apply (a0 : FVec Ideal S2x50000x64 .f32) (src : IVec S1600000x1 32) (g2 : FVec Ideal S1600000 .f32)
    (b : Fin 2) (e : Fin 1600000) (d : Fin 64) :
    msg a0 src g2 (ix3 b e d) = a0 (ix3 b (Cert.Spec.row (src (ix2 e (0 : Fin 1)))) d) * g2 (ix1 e) := by
  unfold msg
  rw [mulf_apply]
  have hG : gather_S2x50000x64_S1600000x1_S2x1600000x64_02_1_n_n_1_1_2164
      = rowGatherDims 2 50000 64 1600000 Facts₀.gather_S2x50000x64_S1600000x1_S2x1600000x64_02_1_n_n_1_1_2164_wf := rfl
  rw [hG, gather_rows_apply (by omega)]
  refine congrArg (a0 (ix3 b (Cert.Spec.row (src (ix2 e (0 : Fin 1)))) d) * ·) ?_
  refine (broadcastInDim_apply _ _ _ (ix3 b e d) (ix3 (0 : Fin 1) e (0 : Fin 1)) ?_).trans ?_
  · intro a
    match a with
    | ⟨0, _⟩ => rfl
    | ⟨1, _⟩ => rfl
    | ⟨2, _⟩ => rfl
  · refine shapeCast_apply _ _ (ix3 (0 : Fin 1) e (0 : Fin 1)) (ix1 e) ?_
    rw [Shape.rowMajor_val_three, Shape.rowMajor_val_one]
    show e.val = (0 * 1600000 + e.val) * 1 + 0
    omega

end Cert.KernelIdeal.KernelNbr

end
-- ==== Proof.KernelNbr.lean ====
/-
  The kernel program's aggregation, read at an index: its ONE accumulating scatter of the two message lists laid end
  to end gives the specification's aggregated neighbours (the sum over the doubled range splits into its halves, and
  the two halves are the two directions of the edges).
-/
import proofs.«157130_j70669391888820_2_alg».proof.Proof.KernelNbrAt

noncomputable section

open scoped BigOperators

namespace Cert.KernelIdeal.KernelNbr

open Idealize.ShloMosaic Idealize.ShloMosaic.ValueIdx Cert.KernelIdeal Cert.KernelIdeal.Gen Cert.KernelIdeal.Facts₀
open Cert.KernelIdeal.Term Cert.LibRows

/-- A message in the FIRST half of the laid-out list: it lands at edge `e`'s second endpoint and reads the first. -/
theorem lo_term (a0 : FVec Ideal S2x50000x64 .f32) (a1 : IVec S800000x2 32) (a4 : FVec Ideal S800000 .f32)
    (b : Fin 2) (n : Fin 50000) (d : Fin 64) (e : Fin 800000) (h : e.val < 1600000) :
    (if (wrap (cat (col1 a1) (col0 a1)) (ix2 (⟨e.val, h⟩ : Fin 1600000) (0 : Fin 1))).toInt = (n.val : ℤ)
      then msg a0 (wrap (cat (col0 a1) (col1 a1))) (catf a4 a4) (ix3 b (⟨e.val, h⟩ : Fin 1600000) d) else 0)
    = (if (Cert.Spec.dstOf a1 e).toInt = (n.val : ℤ)
      then a0 (ix3 b (Cert.Spec.row (Cert.Spec.srcOf a1 e)) d) * a4 (ix1 e) else 0) := by
  rw [wrap_apply, msg_apply, wrap_apply, cat_lo, cat_lo, catf_lo, col1_apply, col0_apply]
  rfl

/-- A message in the SECOND half: it lands at edge `e`'s first endpoint and reads the second. -/
theorem hi_term (a0 : FVec Ideal S2x50000x64 .f32) (a1 : IVec S800000x2 32) (a4 : FVec Ideal S800000 .f32)
    (b : Fin 2) (n : Fin 50000) (d : Fin 64) (e : Fin 800000) (h : 800000 + e.val < 1600000) :
    (if (wrap (cat (col1 a1) (col0 a1)) (ix2 (⟨800000 + e.val, h⟩ : Fin 1600000) (0 : Fin 1))).toInt = (n.val : ℤ)
      then msg a0 (wrap (cat (col0 a1) (col1 a1))) (catf a4 a4) (ix3 b (⟨800000 + e.val, h⟩ : Fin 1600000) d) else 0)
    = (if (Cert.Spec.srcOf a1 e).toInt = (n.val : ℤ)
      then a0 (ix3 b (Cert.Spec.row (Cert.Spec.dstOf a1 e)) d) * a4 (ix1 e) else 0) := by
  rw [wrap_apply, msg_apply, wrap_apply, cat_hi, cat_hi, catf_hi, col1_apply, col0_apply]
  rfl

/-- The program's accumulating scatter, read at `(b, n, d)`: the operand's entry plus the update rows whose index
    word is `n`. -/
theorem scatter_at (x : FVec Ideal S2x50000x64 .f32) (idx : IVec S1600000x1 32) (upd : FVec Ideal S2x1600000x64 .f32)
    (b : Fin 2) (n : Fin 50000) (d : Fin 64) :
    Host.scatterAdd scatter_S2x50000x64_S1600000x1_S2x1600000x64_02_1_1_1 x idx upd (ix3 b n d)
      = x (ix3 b n d) + ∑ e : Fin 1600000, if (idx (ix2 e (0 : Fin 1))).toInt = (n.val : ℤ) then upd (ix3 b e d) else 0 :=
  hostScatterAdd_rows_apply (B := 2) (N := 50000) (D := 64) (M := 1600000) (w := 32)
    Facts₀.scatter_S2x50000x64_S1600000x1_S2x1600000x64_02_1_1_1_wf x idx upd b n d

/-- The kernel program's aggregated neighbours are the specification's. The sum over the 1600000 laid-out messages
    splits at 800000: the first half lands at the second endpoints and reads the first, the second half the other way
    round; what remains is the grouping of three summands. -/
theorem nbr_eq (a0 : FVec Ideal S2x50000x64 .f32) (a1 : IVec S800000x2 32) (a4 : FVec Ideal S800000 .f32) :
    nbr a0 a1 a4 = Cert.Spec.nbr a0 a1 a4 := by
  funext i
  obtain ⟨b, n, d, rfl⟩ : ∃ (b : Fin 2) (n : Fin 50000) (d : Fin 64), i = ix3 b n d := ⟨i 0, i 1, i 2, eq_ix3 i⟩
  unfold nbr
  rw [scatter_at]
  rw [sum_two_halves (K := 800000) (K2 := 1600000) (by norm_num)]
  refine (congrArg₂ (fun s t : EReal => zeros (F := Ideal) (ix3 b n d) + (s + t))
    (Finset.sum_congr rfl fun e _ => lo_term a0 a1 a4 b n d e _)
    (Finset.sum_congr rfl fun e _ => hi_term a0 a1 a4 b n d e _)).trans ?_
  exact (add_assoc _ _ _).symm

end Cert.KernelIdeal.KernelNbr

end
-- ==== Proof.KernelValue.lean ====
/-
  The dense stage on the flattened arrays, unflattened, is the specification's result: row `b · 50000 + n` of a
  flattened array is entry `(b, n)` of the array, and the weight the matrix unit reads at `(k, e)` is the weight
  at `(e, k)`.
-/
import proofs.«157130_j70669391888820_2_alg».proof.Proof.KernelNbr

noncomputable section

open scoped BigOperators

namespace Cert.KernelIdeal.KernelValue

open Idealize.ShloMosaic Idealize.ShloMosaic.ValueIdx Cert.KernelIdeal Cert.KernelIdeal.Gen Cert.KernelIdeal.Facts₀
open Cert.KernelIdeal.Term Cert.KernelIdeal.KernelNbr

/-- A flattened array at row `b · 50000 + n` is the array at `(b, n)`. -/
theorem flat_apply (a : FVec Ideal S2x50000x64 .f32) (b : Fin 2) (n : Fin 50000) (k : Fin 64)
    (h : b.val * 50000 + n.val < 100000) :
    flat a (ix2 (⟨b.val * 50000 + n.val, h⟩ : Fin 100000) k) = a (ix3 b n k) := by
  unfold flat
  refine shapeCast_apply _ _ _ (ix3 b n k) ?_
  rw [Shape.rowMajor_val_three, Shape.rowMajor_val_two]
  show (b.val * 50000 + n.val) * 64 + k.val = (b.val * 50000 + n.val) * 64 + k.val
  rfl

/-- An unflattened array at `(b, n)` is the flat array at row `b · 50000 + n`. -/
theorem unflat_apply (y : FVec Ideal S100000x64 .f32) (b : Fin 2) (n : Fin 50000) (e : Fin 64)
    (h : b.val * 50000 + n.val < 100000) :
    unflat y (ix3 b n e) = y (ix2 (⟨b.val * 50000 + n.val, h⟩ : Fin 100000) e) := by
  unfold unflat
  refine shapeCast_apply _ _ _ (ix2 (⟨b.val * 50000 + n.val, h⟩ : Fin 100000) e) ?_
  rw [Shape.rowMajor_val_three, Shape.rowMajor_val_two]
  show (b.val * 50000 + n.val) * 64 + e.val = (b.val * 50000 + n.val) * 64 + e.val
  rfl

/-- The weight as the matrix unit reads it, at `(k, e)`, is the weight at `(e, k)`. -/
theorem wt_apply (a5 : FVec Ideal S64x64 .f32) (k e : Fin 64) : wt a5 (ix2 k e) = a5 (ix2 e k) := by
  unfold wt
  rw [truncf_apply]
  refine transpose_apply _ _ _ (ix2 k e) (ix2 e k) ?_
  intro c
  match c with
  | ⟨0, _⟩ => rfl
  | ⟨1, _⟩ => rfl

/-- The dense stage on the flattened arrays, unflattened, is the specification's result of the specification's
    neighbours. -/
theorem out_eq (a0 : FVec Ideal S2x50000x64 .f32) (a1 : IVec S800000x2 32) (a2 a3 : FVec Ideal S2x50000x64 .f32)
    (a4 : FVec Ideal S800000 .f32) (a5 : FVec Ideal S64x64 .f32) :
    unflat (F := Ideal) (Cert.Spec.dense (nbr2 a0 a1 a4) (flat a2) (flat a3) (wt a5))
      = Cert.Spec.out (Cert.Spec.nbr a0 a1 a4) a2 a3 a5 := by
  funext i
  obtain ⟨b, n, e, rfl⟩ : ∃ (b : Fin 2) (n : Fin 50000) (e : Fin 64), i = ix3 b n e := ⟨i 0, i 1, i 2, eq_ix3 i⟩
  have h : b.val * 50000 + n.val < 100000 := by have := b.isLt; have := n.isLt; omega
  rw [unflat_apply _ b n e h]
  show Cert.Spec.denseAt (nbr2 a0 a1 a4) (flat a2) (flat a3) (wt a5) ⟨b.val * 50000 + n.val, h⟩ e = _
  unfold nbr2
  rw [nbr_eq]
  generalize Cert.Spec.nbr a0 a1 a4 = X
  unfold Cert.Spec.denseAt
  simp only [flat_apply, wt_apply]
  rfl

end Cert.KernelIdeal.KernelValue

end
-- ==== Proof.lean ====
/-
  The certificate: a gather, gate and accumulating scatter of neighbour embeddings along the edges of a graph,
  followed by a linear layer with residual sums and a leaky rectifier, against the same computation written with
  plain array operations.

  The kernel program gathers and scatters ONCE over the two directions of every edge laid end to end, flattens batch
  and node into one row axis, and runs the dense stage block by block (5000 rows at each of 20 grid points); the
  reference scatters twice, once per direction, and applies the linear layer as one contraction. Over the extended
  reals both results are the ONE function `Spec.out (Spec.nbr prev edges gates) node edge W` of the argument arrays:
  the kernel's sum over 1600000 messages splits into the reference's two sums over 800000, in the reference's order
  (what remains is associativity of addition of extended reals, so no finiteness of the inputs is used), and the
  blockwise products with the transposed weight are the contraction's terms. The idealized kernel program is the
  word-level program's own text read over the extended reals, with nothing rewritten, so that claim is trivial.
-/
import proofs.«157130_j70669391888820_2_alg».proof.Defs
import proofs.«157130_j70669391888820_2_alg».proof.Proof.Gen.Kernel
import proofs.«157130_j70669391888820_2_alg».proof.Proof.Gen.Kernel.Frame
import proofs.«157130_j70669391888820_2_alg».proof.Proof.Gen.KernelIdeal
import proofs.«157130_j70669391888820_2_alg».proof.Proof.Gen.KernelIdeal.Frame
import proofs.«157130_j70669391888820_2_alg».proof.Proof.Gen.ReferenceIdeal
import proofs.«157130_j70669391888820_2_alg».proof.Proof.Gen.Pre_finite_inputs
import proofs.«157130_j70669391888820_2_alg».proof.Proof.RefRun
import proofs.«157130_j70669391888820_2_alg».proof.Proof.RefValue
import proofs.«157130_j70669391888820_2_alg».proof.Proof.KernelRun
import proofs.«157130_j70669391888820_2_alg».proof.Proof.KernelValue
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.HandRun.run (F := Ideal) m ρ)

/-- From memories agreeing on the arguments both idealized programs end with the specification's result. -/
theorem algebraic : Cert.algebraic_KernelIdeal_ReferenceIdeal := by
  intro m ρ m' ρ' _ hagree
  refine ⟨fun c => Cert.Spec.out
      (Cert.Spec.nbr (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg4)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KernelValue.out_eq _ _ _ _ _ _), (h c).2⟩)
      (Cert.KernelIdeal.HandRun.run m ρ)
  · refine (θ_run Cert.ReferenceIdeal.defs _ _).mono (fun _ h c => ⟨?_, (h c).2⟩)
      (Cert.ReferenceIdeal.HandRun.run (F := Ideal) m' ρ')
    rw [(h c).1, Cert.ReferenceIdeal.RefValue.out_eq, (hagree c).1, (hagree c).2.1, (hagree c).2.2.1,
      (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
